-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x40 : Shape := ⟨2, ![100000, 40]⟩
abbrev S4000x40 : Shape := ⟨2, ![4000, 40]⟩
abbrev S3300000x40 : Shape := ⟨2, ![3300000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x40, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x40, .f32⟩
  | .hbm, ⟨77, _⟩ => ⟨S3300000x1, .f32⟩
  | .hbm, ⟨78, _⟩ => ⟨S3300000x40, .f32⟩
  | .hbm, ⟨79, _⟩ => ⟨S3300000x40, .f32⟩
  | .hbm, ⟨80, _⟩ => ⟨S_, .f32⟩
  | .hbm, ⟨81, _⟩ => ⟨S100000x40, .f32⟩
  | .hbm, ⟨82, _⟩ => ⟨S3300000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x40, .f32⟩
  | .local _ .vmem, ⟨9, _⟩ => ⟨S4000x40, .f32⟩
  | .local _ .vmem, ⟨10, _⟩ => ⟨S4000x40, .f32⟩
  | .local _ .vmem, ⟨11, _⟩ => ⟨S4000x40, .f32⟩
  | .local _ .vmem, ⟨12, _⟩ => ⟨S4000x40, .f32⟩
  | .local _ .vmem, ⟨13, _⟩ => ⟨S1x40, .f32⟩
  | .local _ .vmem, ⟨14, _⟩ => ⟨S4000x40, .f32⟩
  | .local _ .vmem, ⟨15, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  shapeCasts_S4000x16_S4000x16 : S4000x16.ShapeCasts S4000x16
  inb_S16x40_S16x40_0_0 : ∀ a, (![0, 0] : Fin 2 → Nat) a + S16x40.size a ≤ S16x40.size a
  h_S16x40 : 0 < S16x40.numel
  inb_S4000x40_S4000x40_0_0 : ∀ a, (![0, 0] : Fin 2 → Nat) a + S4000x40.size a ≤ S4000x40.size a
  h_S4000x40 : 0 < S4000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  shapeCasts_S4000x40_S4000x40 : S4000x40.ShapeCasts S4000x40
  reduces_S4000x40_S4000 : S4000x40.Reduces [1] S4000
  shapeCasts_S4000_S4000x1 : S4000.ShapeCasts S4000x1
  broadcasts_S4000x1_S4000x40 : S4000x1.Broadcasts S4000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x40_S4000x40_1_0_0_1_n_n_wf : DotDims.WF S4000x16 S16x40 S4000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .f32 = 32 ∨ (Rect.block (s := S100000x40) S4000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x16, .f32⟩
  | 4 => ⟨S16, .f32⟩
  | 5 => ⟨S16x40, .f32⟩
  | 6 => ⟨S40, .f32⟩
  | 7 => ⟨S1x3200000, .i32⟩
  | 8 => ⟨S3200000, .i32⟩
  | 9 => ⟨S1x3200000, .i32⟩
  | 10 => ⟨S3200000, .i32⟩
  | 11 => ⟨S100000x16, .f32⟩
  | 12 => ⟨S100000, .i32⟩
  | 13 => ⟨S3300000, .i32⟩
  | 14 => ⟨S3300000, .i32⟩
  | 15 => ⟨S_, .f32⟩
  | 16 => ⟨S100000, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x40, .f32⟩
  | 73 => ⟨S100000, .i32⟩
  | 74 => ⟨S3300000, .i32⟩
  | 75 => ⟨S3300000, .i32⟩
  | 76 => ⟨S_, .f32⟩
  | 77 => ⟨S100000, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x40, .f32⟩
  | 120 => ⟨S3300000x1, .f32⟩
  | 121 => ⟨S3300000x40, .f32⟩
  | 122 => ⟨S3300000x40, .f32⟩
  | 123 => ⟨S_, .f32⟩
  | 124 => ⟨S100000x40, .f32⟩
  | 125 => ⟨S3300000x1, .i32⟩
  | 126 => ⟨S100000x40, .f32⟩
  | 127 => ⟨S1x40, .f32⟩
  | _ => ⟨S100000x512, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x40, .f32⟩
  | 9 => ⟨S100000x40, .f32⟩
  | 10 => ⟨S100000x40, .f32⟩
  | 11 => ⟨S_, .f32⟩
  | 12 => ⟨S100000, .f32⟩
  | 13 => ⟨S100000x1, .f32⟩
  | 14 => ⟨S100000x1, .f32⟩
  | 15 => ⟨S100000x40, .f32⟩
  | 16 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_call3_cst_0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_cst_1 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_v95 : Ref sig .tc := ⟨.hbm, 144, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its RESULT read: the program is eight segments — three stretches of host operations,
  the first dense region, a stretch, the second dense region, a stretch, the log-softmax region — and the contents of
  every unscoped buffer at each boundary are a fold through them from the launch memory. Every weakly fair execution
  terminates, nothing faults, and the final state holds every unscoped buffer at the LAST boundary's contents: in
  particular the result buffer, and the seven arguments, which no segment writes.
-/
import proofs.«153694_j9844065042433_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the last
    boundary's contents and the arguments end as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.GcnRun

end
-- ==== Proof.Glue.lean ====
/-
  The sparse half of a graph convolution, as functions of whole arrays. Both programs compute it on the host by the
  same operations; naming it once lets every later step treat it as one opaque function of its inputs.

  An edge list `e` of shape [2, E] with E = 3200000 gives the edges' sources (row 0) and destinations (row 1); a self loop
  is appended for each of the N = 100000 nodes, so both end arrays have E + N entries, and the weights are the given
  ones followed by N ones. The degree of a node is the sum of the weights of the edges ending in it (a scatter-add
  into zeros); its inverse square root is taken where the degree is positive and is zero elsewhere; an edge's norm is
  the product of the inverse square root at its source, its weight, and the inverse square root at its destination
  (two gathers, negative indices wrapped by N first, as array indexing does). An aggregation gathers the rows of a
  feature array at the sources, scales each by its edge's norm, and adds it into the row of its destination.
-/
import proofs.«153694_j9844065042433_1_alg».proof.Proof.Gen.KernelIdeal

noncomputable section

namespace Cert.KernelIdeal.Glue

open Cert.KernelIdeal Cert.KernelIdeal.Gen Idealize.ShloMosaic

variable {F : FTy → Type} [FloatOps F]

/-- Row 0 of the edge list as a flat array: the sources of the given edges. -/
def row0 (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- Row 1 of the edge list as a flat array: the destinations of the given edges. -/
def row1 (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- A row of edge ends with the node numbers 0 … N−1 appended: the ends of the edges and of the self loops. -/
def ends (r : (⟨S3200000, .i32⟩ : BufTy).Contents (Elt F)) : (⟨S3300000, .i32⟩ : BufTy).Contents (Elt F) :=
  concatenate S3300000 0 [⟨S3200000, r⟩, ⟨S100000, iotaInDim S100000 32 0⟩] concatenates_S3200000_S100000_S3300000_d0

/-- The sources with the self loops. -/
def ends0 (e : (⟨S2x3200000, .i32⟩ : BufTy).Contents (Elt F)) : (⟨S3300000, .i32⟩ : BufTy).Contents (Elt F) := ends (row0 e)

/-- The destinations with the self loops. -/
def ends1 (e : (⟨S2x3200000, .i32⟩ : BufTy).Contents (Elt F)) : (⟨S3300000, .i32⟩ : BufTy).Contents (Elt F) := ends (row1 e)

/-- The edge weights followed by a one for every self loop. -/
def weights (w : (⟨S3200000, .f32⟩ : BufTy).Contents (Elt F)) : (⟨S3300000, .f32⟩ : BufTy).Contents (Elt F) :=
  concatenate S3300000 0 [⟨S3200000, w⟩, ⟨S100000, broadcastInDim S100000 ![] bcast_S_S100000 (constant S_ .f32 0x3F800000#32)⟩] concatenates_S3200000_S100000_S3300000_d0

/-- An index array as a column of one-entry index vectors. -/
def column (i : (⟨S3300000, .i32⟩ : BufTy).Contents (Elt F)) : (⟨S3300000x1, .i32⟩ : BufTy).Contents (Elt F) :=
  broadcastInDim S3300000x1 ![0] bcast_S3300000_S3300000x1_0 i

/-- Negative indices wrapped by the number of nodes, then as a column: what a gather is indexed by. -/
def wrapped (i : (⟨S3300000, .i32⟩ : BufTy).Contents (Elt F)) : (⟨S3300000x1, .i32⟩ : BufTy).Contents (Elt F) :=
  broadcastInDim S3300000x1 ![0] bcast_S3300000_S3300000x1_0
    (select (cmpi .slt i (broadcastInDim S3300000 ![] bcast_S_S3300000 (constantI S_ 32 0#32)))
      (addi i (broadcastInDim S3300000 ![] bcast_S_S3300000 (constantI S_ 32 100000#32))) i)

/-- A node's degree from the destinations `d` and the weights `w` of all edges: the weights of the edges ending in it, added into zero. -/
def degreeOf (d : (⟨S3300000, .i32⟩ : BufTy).Contents (Elt F)) (w : (⟨S3300000, .f32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (column d) w

/-- The inverse square root of the degree where it is positive, zero elsewhere. -/
def invSqrtDegreeOf (d : (⟨S3300000, .i32⟩ : BufTy).Contents (Elt F)) (w : (⟨S3300000, .f32⟩ : BufTy).Contents (Elt F)) : (⟨S100000, .f32⟩ : BufTy).Contents (Elt F) :=
  select (cmpf .ogt (degreeOf d w) (broadcastInDim S100000 ![] bcast_S_S100000 (constant S_ .f32 0x00000000#32)))
    (Host.rsqrt (degreeOf d w))
    (broadcastInDim S100000 ![] bcast_S_S100000 (id (constant S_ .f32 0x00000000#32)))

/-- An edge's norm from the sources `s`, the destinations `d` and the weights `w`: inverse square root at its source, times its
    weight, times inverse square root at its destination. -/
def normOf (s d : (⟨S3300000, .i32⟩ : BufTy).Contents (Elt F)) (w : (⟨S3300000, .f32⟩ : BufTy).Contents (Elt F)) : (⟨S3300000, .f32⟩ : BufTy).Contents (Elt F) :=
  mulf (mulf (Host.gather gather_S100000_S3300000x1_S3300000_n_0_n_n_0_1_1 (invSqrtDegreeOf d w) (wrapped s)) w)
    (Host.gather gather_S100000_S3300000x1_S3300000_n_0_n_n_0_1_1 (invSqrtDegreeOf d w) (wrapped d))

/-- The edge norms of an edge list `e` with weights `w`. -/
def norm (e : (⟨S2x3200000, .i32⟩ : BufTy).Contents (Elt F)) (w : (⟨S3200000, .f32⟩ : BufTy).Contents (Elt F)) : (⟨S3300000, .f32⟩ : BufTy).Contents (Elt F) :=
  normOf (ends0 e) (ends1 e) (weights w)

/-- Aggregation of 16-wide features: rows gathered at the sources `s`, scaled by the norms `n`, added into the rows of the destinations `d`. -/
def aggregate16 (s d : (⟨S3300000, .i32⟩ : BufTy).Contents (Elt F)) (n : (⟨S3300000, .f32⟩ : BufTy).Contents (Elt F)) (h : (⟨S100000x16, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (column d)
    (mulf (Host.gather gather_S100000x16_S3300000x1_S3300000x16_1_0_n_n_0_1_116 h (wrapped s))
      (broadcastInDim S3300000x16 ![0, 1] bcast_S3300000x1_S3300000x16_0_1 (broadcastInDim S3300000x1 ![0] bcast_S3300000_S3300000x1_0 n)))

/-- Aggregation of 40-wide features. -/
def aggregate40 (s d : (⟨S3300000, .i32⟩ : BufTy).Contents (Elt F)) (n : (⟨S3300000, .f32⟩ : BufTy).Contents (Elt F)) (h : (⟨S100000x40, .f32⟩ : BufTy).Contents (Elt F)) : (⟨S100000x40, .f32⟩ : BufTy).Contents (Elt F) :=
  Host.scatterAdd scatter_S100000x40_S3300000x1_S3300000x40_1_0_0_1 (broadcastInDim S100000x40 ![] bcast_S_S100000x40 (constant S_ .f32 0x00000000#32)) (column d)
    (mulf (Host.gather gather_S100000x40_S3300000x1_S3300000x40_1_0_n_n_0_1_140 h (wrapped s))
      (broadcastInDim S3300000x40 ![0, 1] bcast_S3300000x1_S3300000x40_0_1 (broadcastInDim S3300000x1 ![0] bcast_S3300000_S3300000x1_0 n)))

end Cert.KernelIdeal.Glue

end
-- ==== Proof.KernelBoundaries.lean ====
/-
  The idealized kernel's buffer contents at each boundary of its eight segments, read one segment at a time: what the
  first three stretches of host operations leave in the edge arrays (the ends of the edges with the self loops, and the
  edge norms) as functions of the edge list and the weights; that a dense region's output array is what its pipeline
  leaves and that it changes no other buffer; what the stretch after a dense region computes (the aggregation of that
  region's output, and the bias as one row); and that the buffers a later segment reads are carried unchanged through
  the segments that do not write them.
-/
import proofs.«153694_j9844065042433_1_alg».proof.Proof.Gen.KernelIdeal.Frame
import proofs.«153694_j9844065042433_1_alg».proof.Proof.Glue
import Idealize.ShloMosaic.Lib.StableHlo.Run

set_option maxRecDepth 16384
set_option maxHeartbeats 4000000

noncomputable section

namespace Cert.KernelIdeal.Boundaries

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0's entry: the edge arrays and the arguments after the first three stretches -/

/-- The sources with the self loops, as region 0 is entered. -/
theorem sources_at_entry0 (c : Dev nD) : W3 m ρ c (Proc.devRef .tc main_v5) = Glue.ends0 (m ((c : Thread nD τ).loc main_arg1)) := by
  dsimp only [W3, W2, W1, W0, hostOps0, hostOps0_1, hostOps0_2]
  after_results_simp
  rfl
/-- The destinations with the self loops. -/
theorem destinations_at_entry0 (c : Dev nD) : W3 m ρ c (Proc.devRef .tc main_v6) = Glue.ends1 (m ((c : Thread nD τ).loc main_arg1)) := by
  dsimp only [W3, W2, W1, W0, hostOps0, hostOps0_1, hostOps0_2]
  after_results_simp
  rfl
/-- The edge norms. -/
theorem norms_at_entry0 (c : Dev nD) : W3 m ρ c (Proc.devRef .tc main_v31) = Glue.norm (m ((c : Thread nD τ).loc main_arg1)) (m ((c : Thread nD τ).loc main_arg2)) := by
  dsimp only [W3, W2, W1, W0, hostOps0, hostOps0_1, hostOps0_2]
  after_results_simp
  rfl
/-- Argument 0 is as launched: no host operation writes it. -/
theorem arg0_at_entry0 (c : Dev nD) : W3 m ρ c (Proc.devRef .tc main_arg0) = m ((c : Thread nD τ).loc main_arg0) := by
  dsimp only [W3, W2, W1, W0, hostOps0, hostOps0_1, hostOps0_2]
  after_results_simp
/-- Argument 3 is as launched: no host operation writes it. -/
theorem arg3_at_entry0 (c : Dev nD) : W3 m ρ c (Proc.devRef .tc main_arg3) = m ((c : Thread nD τ).loc main_arg3) := by
  dsimp only [W3, W2, W1, W0, hostOps0, hostOps0_1, hostOps0_2]
  after_results_simp
/-- Argument 4 is as launched: no host operation writes it. -/
theorem arg4_at_entry0 (c : Dev nD) : W3 m ρ c (Proc.devRef .tc main_arg4) = m ((c : Thread nD τ).loc main_arg4) := by
  dsimp only [W3, W2, W1, W0, hostOps0, hostOps0_1, hostOps0_2]
  after_results_simp
/-- Argument 5 is as launched: no host operation writes it. -/
theorem arg5_at_entry0 (c : Dev nD) : W3 m ρ c (Proc.devRef .tc main_arg5) = m ((c : Thread nD τ).loc main_arg5) := by
  dsimp only [W3, W2, W1, W0, hostOps0, hostOps0_1, hostOps0_2]
  after_results_simp
/-- Argument 6 is as launched: no host operation writes it. -/
theorem arg6_at_entry0 (c : Dev nD) : W3 m ρ c (Proc.devRef .tc main_arg6) = m ((c : Thread nD τ).loc main_arg6) := by
  dsimp only [W3, W2, W1, W0, hostOps0, hostOps0_1, hostOps0_2]
  after_results_simp

/-! ## Region 0's exit -/

/-- The first transform's output array is what its pipeline leaves. -/
theorem transform1_at_exit0 (c : Dev nD) : W4 m ρ c (Proc.devRef .tc main_v32) = (dat0 (V3 m ρ) c).arrAt 2 cfg0.N := W4_arr m ρ c 2
/-- Region 0 does not write %v5. -/
theorem v5_through0 (c : Dev nD) : W4 m ρ c (Proc.devRef .tc main_v5) = W3 m ρ c (Proc.devRef .tc main_v5) := W4_of_ne m ρ c main_v5 (by decide)
/-- Region 0 does not write %v6. -/
theorem v6_through0 (c : Dev nD) : W4 m ρ c (Proc.devRef .tc main_v6) = W3 m ρ c (Proc.devRef .tc main_v6) := W4_of_ne m ρ c main_v6 (by decide)
/-- Region 0 does not write %v31. -/
theorem v31_through0 (c : Dev nD) : W4 m ρ c (Proc.devRef .tc main_v31) = W3 m ρ c (Proc.devRef .tc main_v31) := W4_of_ne m ρ c main_v31 (by decide)
/-- Region 0 does not write %arg4. -/
theorem arg4_through0 (c : Dev nD) : W4 m ρ c (Proc.devRef .tc main_arg4) = W3 m ρ c (Proc.devRef .tc main_arg4) := W4_of_ne m ρ c main_arg4 (by decide)
/-- Region 0 does not write %arg5. -/
theorem arg5_through0 (c : Dev nD) : W4 m ρ c (Proc.devRef .tc main_arg5) = W3 m ρ c (Proc.devRef .tc main_arg5) := W4_of_ne m ρ c main_arg5 (by decide)
/-- Region 0 does not write %arg6. -/
theorem arg6_through0 (c : Dev nD) : W4 m ρ c (Proc.devRef .tc main_arg6) = W3 m ρ c (Proc.devRef .tc main_arg6) := W4_of_ne m ρ c main_arg6 (by decide)

/-! ## Region 1's entry: the first aggregation and the bias row -/

/-- The first aggregation, of region 0's output. -/
theorem aggregate1_at_entry1 (c : Dev nD) : W5 m ρ c (Proc.devRef .tc main_v45) = Glue.aggregate16 (W4 m ρ c (Proc.devRef .tc main_v5)) (W4 m ρ c (Proc.devRef .tc main_v6)) (W4 m ρ c (Proc.devRef .tc main_v31)) (W4 m ρ c (Proc.devRef .tc main_v32)) := by
  dsimp only [W5, hostOps1]
  after_results_simp
  rfl
/-- The first bias as one row. -/
theorem bias1_at_entry1 (c : Dev nD) : W5 m ρ c (Proc.devRef .tc main_v46) = shapeCast S1x16 (W4 m ρ c (Proc.devRef .tc main_arg4)) shapeCasts_S16_S1x16 := by
  dsimp only [W5, hostOps1]
  after_results_simp
  rfl
/-- The stretch before region 1 does not write %v5. -/
theorem v5_through_stretch1 (c : Dev nD) : W5 m ρ c (Proc.devRef .tc main_v5) = W4 m ρ c (Proc.devRef .tc main_v5) := by
  dsimp only [W5, hostOps1]
  after_results_simp
/-- The stretch before region 1 does not write %v6. -/
theorem v6_through_stretch1 (c : Dev nD) : W5 m ρ c (Proc.devRef .tc main_v6) = W4 m ρ c (Proc.devRef .tc main_v6) := by
  dsimp only [W5, hostOps1]
  after_results_simp
/-- The stretch before region 1 does not write %v31. -/
theorem v31_through_stretch1 (c : Dev nD) : W5 m ρ c (Proc.devRef .tc main_v31) = W4 m ρ c (Proc.devRef .tc main_v31) := by
  dsimp only [W5, hostOps1]
  after_results_simp
/-- The stretch before region 1 does not write %arg5. -/
theorem arg5_through_stretch1 (c : Dev nD) : W5 m ρ c (Proc.devRef .tc main_arg5) = W4 m ρ c (Proc.devRef .tc main_arg5) := by
  dsimp only [W5, hostOps1]
  after_results_simp
/-- The stretch before region 1 does not write %arg6. -/
theorem arg6_through_stretch1 (c : Dev nD) : W5 m ρ c (Proc.devRef .tc main_arg6) = W4 m ρ c (Proc.devRef .tc main_arg6) := by
  dsimp only [W5, hostOps1]
  after_results_simp

/-! ## Region 1's exit -/

/-- The second transform's output array is what its pipeline leaves. -/
theorem transform2_at_exit1 (c : Dev nD) : W6 m ρ c (Proc.devRef .tc main_v47) = (dat1 (V5 m ρ) c).arrAt 3 cfg1.N := W6_arr m ρ c 3
/-- Region 1 does not write %v5. -/
theorem v5_through1 (c : Dev nD) : W6 m ρ c (Proc.devRef .tc main_v5) = W5 m ρ c (Proc.devRef .tc main_v5) := W6_of_ne m ρ c main_v5 (by decide)
/-- Region 1 does not write %v6. -/
theorem v6_through1 (c : Dev nD) : W6 m ρ c (Proc.devRef .tc main_v6) = W5 m ρ c (Proc.devRef .tc main_v6) := W6_of_ne m ρ c main_v6 (by decide)
/-- Region 1 does not write %v31. -/
theorem v31_through1 (c : Dev nD) : W6 m ρ c (Proc.devRef .tc main_v31) = W5 m ρ c (Proc.devRef .tc main_v31) := W6_of_ne m ρ c main_v31 (by decide)
/-- Region 1 does not write %arg6. -/
theorem arg6_through1 (c : Dev nD) : W6 m ρ c (Proc.devRef .tc main_arg6) = W5 m ρ c (Proc.devRef .tc main_arg6) := W6_of_ne m ρ c main_arg6 (by decide)

/-! ## Region 2's entry: the second aggregation and the bias row -/

/-- The second aggregation, of region 1's output. -/
theorem aggregate2_at_entry2 (c : Dev nD) : W7 m ρ c (Proc.devRef .tc main_v60) = Glue.aggregate40 (W6 m ρ c (Proc.devRef .tc main_v5)) (W6 m ρ c (Proc.devRef .tc main_v6)) (W6 m ρ c (Proc.devRef .tc main_v31)) (W6 m ρ c (Proc.devRef .tc main_v47)) := by
  dsimp only [W7, hostOps2]
  after_results_simp
  rfl
/-- The second bias as one row. -/
theorem bias2_at_entry2 (c : Dev nD) : W7 m ρ c (Proc.devRef .tc main_v61) = shapeCast S1x40 (W6 m ρ c (Proc.devRef .tc main_arg6)) shapeCasts_S40_S1x40 := by
  dsimp only [W7, hostOps2]
  after_results_simp
  rfl

/-! ## Region 2's exit: the result -/

/-- The result array is what the log-softmax pipeline leaves. -/
theorem result_at_exit2 (c : Dev nD) : W8 m ρ c (Proc.devRef .tc main_v62) = (dat2 (V7 m ρ) c).arrAt 2 cfg2.N := W8_arr m ρ c 2

end Cert.KernelIdeal.Boundaries

end
-- ==== Proof.Spec.lean ====
/-
  The three dense stages of a two-layer graph convolution, each as ONE function of whole arrays, index by index, on the
  extended reals. Between them sits the sparse aggregation (gather the rows of the sources, scale by the edge norm,
  add into the rows of the destinations), which both programs compute by the same host operations and which is never
  opened here.

  * `lin1 x w`      : entry (r, j) is the sum over k of x(r, k) · w(k, j)               (the first feature transform)
  * `lin2 a b w`    : entry (r, j) is the sum over k of max(a(r, k) + b(0, k), 0) · w(k, j)  (bias, rectifier, second transform)
  * `lsm z b`       : with y(r, k) = z(r, k) + b(0, k) and M(r) the maximum of row r of y taken from −∞,
                        entry (r, j) is (y(r, j) − M(r)) − log (sum over k of exp (y(r, k) − M(r)))  (bias and row-wise log-softmax)

  A sum over a row is a finite sum in a commutative monoid and a maximum over a row is a fold of `max`, so neither
  depends on the order in which a program visits the row, nor on how the rows are tiled into blocks.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The first feature transform: rows of `x` against columns of `w`. -/
def lin1 (x : FVec Ideal ⟨2, ![100000, 512]⟩ .f32) (w : FVec Ideal ⟨2, ![512, 16]⟩ .f32) :
    FVec Ideal ⟨2, ![100000, 16]⟩ .f32 :=
  fun i => ∑ k : Fin 512, x (ix2 (i 0) k) * w (ix2 k (i 1))

/-- A hidden row after the bias and the rectifier: max(a(r, k) + b(0, k), 0). -/
def hidden (a : FVec Ideal ⟨2, ![100000, 16]⟩ .f32) (b : FVec Ideal ⟨2, ![1, 16]⟩ .f32) (r : Fin 100000) (k : Fin 16) : EReal :=
  max (a (ix2 r k) + b (ix2 (0 : Fin 1) k)) (Ideal.ofBits .f32 0x00000000#32)

/-- Bias, rectifier and the second feature transform. -/
def lin2 (a : FVec Ideal ⟨2, ![100000, 16]⟩ .f32) (b : FVec Ideal ⟨2, ![1, 16]⟩ .f32) (w : FVec Ideal ⟨2, ![16, 40]⟩ .f32) :
    FVec Ideal ⟨2, ![100000, 40]⟩ .f32 :=
  fun i => ∑ k : Fin 16, hidden a b (i 0) k * w (ix2 k (i 1))

/-- A row of class scores after the bias: z(r, k) + b(0, k). -/
def scores (z : FVec Ideal ⟨2, ![100000, 40]⟩ .f32) (b : FVec Ideal ⟨2, ![1, 40]⟩ .f32) (r : Fin 100000) (k : Fin 40) : EReal :=
  z (ix2 r k) + b (ix2 (0 : Fin 1) k)

/-- The maximum of a row of scores, folded from −∞. -/
def rowMax (z : FVec Ideal ⟨2, ![100000, 40]⟩ .f32) (b : FVec Ideal ⟨2, ![1, 40]⟩ .f32) (r : Fin 100000) : EReal :=
  (Finset.univ : Finset (Fin 40)).fold max (Ideal.ofBits .f32 0xFF800000#32) (scores z b r)

/-- Bias and the row-wise log-softmax, shifted by the row's maximum. -/
def lsm (z : FVec Ideal ⟨2, ![100000, 40]⟩ .f32) (b : FVec Ideal ⟨2, ![1, 40]⟩ .f32) :
    FVec Ideal ⟨2, ![100000, 40]⟩ .f32 :=
  fun i => (scores z b (i 0) (i 1) - rowMax z b (i 0))
    - Ideal.log (∑ k : Fin 40, Ideal.exp (scores z b (i 0) k - rowMax z b (i 0)))

end Cert.Gcn

end
-- ==== Proof.Transform1.lean ====
/-
  The first feature transform, read off the first region: 25 grid points, point t taking rows 4000 t … 4000 t + 3999
  of the left operand and the whole right operand, multiplying them into a zero accumulator and writing the product
  back as rows 4000 t … 4000 t + 3999 of the result. The narrowing of both operands is the identity on the extended
  reals, so entry (p, q) of a block product is the sum over k of x(p, k) · w(k, q); the blocks are restrictions of
  one whole-array function and tile the result, so the result array ends as that function.
-/
import proofs.«153694_j9844065042433_1_alg».proof.Proof.Spec
import proofs.«153694_j9844065042433_1_alg».proof.Proof.Gen.KernelIdeal.Frame
import Idealize.ShloMosaic.Lib.Pipeline.Value
import Idealize.ShloMosaic.Lib.ValueIdx
import Idealize.ShloMosaic.PureOps.Ideal.Laws

set_option maxRecDepth 16384
noncomputable section
namespace Cert.KernelIdeal.Transform1
open Cert.KernelIdeal Cert.KernelIdeal.Gen Idealize.ShloMosaic Idealize.ShloMosaic.TcCoe Idealize.SL.Sem
open Idealize.ShloMosaic.ValueIdx

/-- Output row coordinate of the left operand's index in the block product. -/
theorem lhs_row (i : S4000x16.Idx) (q : dot_S4000x512_S512x16_S4000x16_1_0_0_1_n_n.contr.Idx) :
    (dot_S4000x512_S512x16_S4000x16_1_0_0_1_n_n.lhsIdx i q 0).val = (i 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
/-- The left operand's column is the contracted coordinate. -/
theorem lhs_col (i : S4000x16.Idx) (q : dot_S4000x512_S512x16_S4000x16_1_0_0_1_n_n.contr.Idx) :
    (dot_S4000x512_S512x16_S4000x16_1_0_0_1_n_n.lhsIdx i q 1).val = (q ⟨0, by decide⟩).val :=
  dot_S4000x512_S512x16_S4000x16_1_0_0_1_n_n.lhsIdx_val_of_single rfl i q
/-- The right operand's row is the contracted coordinate. -/
theorem rhs_row (i : S4000x16.Idx) (q : dot_S4000x512_S512x16_S4000x16_1_0_0_1_n_n.contr.Idx) :
    (dot_S4000x512_S512x16_S4000x16_1_0_0_1_n_n.rhsIdx i q 0).val = (q ⟨0, by decide⟩).val :=
  dot_S4000x512_S512x16_S4000x16_1_0_0_1_n_n.rhsIdx_val_of_single rfl i q
/-- The right operand's column is the output's column. -/
theorem rhs_col (i : S4000x16.Idx) (q : dot_S4000x512_S512x16_S4000x16_1_0_0_1_n_n.contr.Idx) :
    (dot_S4000x512_S512x16_S4000x16_1_0_0_1_n_n.rhsIdx i q 1).val = (i 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- The block product at an index: the sum over the contracted axis. -/
theorem pay_apply (x : Vec Ideal S4000x512 .f32) (w : Vec Ideal S512x16 .f32) (p : Fin 4000) (q : Fin 16) :
    Gen.k0_pay1 (F := Ideal) x w (ix2 p q) = ∑ k : Fin 512, x (ix2 p k) * w (ix2 k q) := by
  unfold Gen.k0_pay1
  refine (Ideal.matmul_constant_zero_apply dot_S4000x512_S512x16_S4000x16_1_0_0_1_n_n none _ _ (ix2 p q)).trans ?_
  rw [← Equiv.sum_comp (contrEquiv1 dot_S4000x512_S512x16_S4000x16_1_0_0_1_n_n 512 rfl rfl).symm]
  refine Finset.sum_congr rfl fun k _ => ?_
  have hk := contrEquiv1_symm_val dot_S4000x512_S512x16_S4000x16_1_0_0_1_n_n 512 rfl rfl k
  have el : dot_S4000x512_S512x16_S4000x16_1_0_0_1_n_n.lhsIdx (ix2 p q) ((contrEquiv1 dot_S4000x512_S512x16_S4000x16_1_0_0_1_n_n 512 rfl rfl).symm k) = ix2 p k := funext fun a => Fin.ext (by
    match a with
    | ⟨0, _⟩ => exact lhs_row _ _
    | ⟨1, _⟩ => exact (lhs_col _ _).trans hk)
  have er : dot_S4000x512_S512x16_S4000x16_1_0_0_1_n_n.rhsIdx (ix2 p q) ((contrEquiv1 dot_S4000x512_S512x16_S4000x16_1_0_0_1_n_n 512 rfl rfl).symm k) = ix2 k q := funext fun a => Fin.ext (by
    match a with
    | ⟨0, _⟩ => exact (rhs_row _ _).trans hk
    | ⟨1, _⟩ => exact rhs_col _ _)
  show x _ * w _ = _
  rw [el, er]

theorem hz : (![0, 0] : Fin 2 → Nat) = fun _ => 0 := funext fun a => by fin_cases a <;> rfl

/-- The printed index maps over the grid: point t takes block row t of the left operand and of the result, and the
    one block of the right operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 4000 t … 4000 t + 3999 of the array. -/
theorem x_read (V : (c : Dev nD) → (b : Ref sig .tc) → Buf (Elt Ideal) ((c : Thread nD τ).loc b)) (c : Dev nD) (t : Fin cfg0.N) (p : Fin 4000) (k : Fin 512) (r : Fin 100000)
    (hr : r.val = t.val * 4000 + p.val) :
    (Gen.iblk0 (F := Ideal) V c 0 t : Vec Ideal S4000x512 .f32) (ix2 p k) = (V c main_arg0 : FVec Ideal ⟨2, ![100000, 512]⟩ .f32) (ix2 r k) := by
  obtain ⟨e0, e1, -, -, -, -⟩ := idx_facts t
  show V c main_arg0 (((cfg0.win 0).blk t).view.emb (ix2 p k)) = V c main_arg0 (ix2 r k)
  have h : ((cfg0.win 0).blk t).view.emb (ix2 p k) = ix2 r k := by
    funext a; apply Fin.ext
    match a with
    | ⟨0, _⟩ => show win0_0.index t (0 : Fin 2) * 4000 + 1 * p.val = r.val; rw [e0, hr]; omega
    | ⟨1, _⟩ => show win0_0.index t (1 : Fin 2) * 512 + 1 * k.val = k.val; rw [e1]; omega
  rw [h]

/-- The right operand's one block is the whole array, at every point. -/
theorem w_read (V : (c : Dev nD) → (b : Ref sig .tc) → Buf (Elt Ideal) ((c : Thread nD τ).loc b)) (c : Dev nD) (t : Fin cfg0.N) (k : Fin 512) (q : Fin 16) :
    (Gen.iblk0 (F := Ideal) V c 1 t : Vec Ideal S512x16 .f32) (ix2 k q) = (V c main_arg3 : FVec Ideal ⟨2, ![512, 16]⟩ .f32) (ix2 k q) := by
  obtain ⟨-, -, e2, e3, -, -⟩ := idx_facts t
  show V c main_arg3 (((cfg0.win 1).blk t).view.emb (ix2 k q)) = V c main_arg3 (ix2 k q)
  have h : ((cfg0.win 1).blk t).view.emb (ix2 k q) = ix2 k q := by
    funext a; apply Fin.ext
    match a with
    | ⟨0, _⟩ => show win0_1.index t (0 : Fin 2) * 512 + 1 * k.val = k.val; rw [e2]; omega
    | ⟨1, _⟩ => show win0_1.index t (1 : Fin 2) * 16 + 1 * q.val = q.val; rw [e3]; omega
  rw [h]

/-- The product of the arrays at explicit coordinates. -/
theorem lin1_apply (x : FVec Ideal ⟨2, ![100000, 512]⟩ .f32) (w : FVec Ideal ⟨2, ![512, 16]⟩ .f32) (r : Fin 100000) (q : Fin 16) :
    Cert.Gcn.lin1 x w (ix2 r q) = ∑ k : Fin 512, x (ix2 r k) * w (ix2 k q) := rfl

/-- What point t writes back is block t of the product of the arrays. -/
theorem flushed_eq (V : (c : Dev nD) → (b : Ref sig .tc) → Buf (Elt Ideal) ((c : Thread nD τ).loc b)) (c : Dev nD) (t : Fin cfg0.N) :
    (Gen.dat0 (F := Ideal) V c).flushed 2 t = ((cfg0.win 2).blk t).view.read (Elt Ideal) (Cert.Gcn.lin1 (V c main_arg0) (V c main_arg3)) := by
  show (cfg0.win 2).cut (grid0.coords t) ((Gen.dat0 (F := Ideal) V c).after 2 t) = _
  rw [Gen.after0_2]
  unfold Gen.out0_2
  rw [View.canon_unit_zero hz]
  simp only [View.ld_unit_zero (S := S4000x512) hz, View.ld_unit_zero (S := S512x16) hz]
  obtain ⟨-, -, -, -, e4, e5⟩ := idx_facts t
  have hN : cfg0.N = 25 := Gen.N_0
  have ht : t.val < cfg0.N := t.isLt
  funext j
  obtain ⟨p, q, rfl⟩ : ∃ (p : Fin 4000) (q : Fin 16), j = ix2 p q := ⟨j 0, j 1, eq_ix2 j⟩
  have hrow : t.val * 4000 + p.val < 100000 := by have := p.isLt; omega
  show Gen.k0_pay1 (F := Ideal) (Gen.iblk0 V c 0 t) (Gen.iblk0 V c 1 t) (ix2 p q)
    = Cert.Gcn.lin1 (V c main_arg0) (V c main_arg3) (((cfg0.win 2).blk t).view.emb (ix2 p q))
  refine (pay_apply (Gen.iblk0 V c 0 t) (Gen.iblk0 V c 1 t) p q).trans ?_
  have hi : ((cfg0.win 2).blk t).view.emb (ix2 p q) = ix2 (⟨t.val * 4000 + p.val, hrow⟩ : Fin 100000) q := by
    funext a; apply Fin.ext
    match a with
    | ⟨0, _⟩ => show win0_2.index t (0 : Fin 2) * 4000 + 1 * p.val = t.val * 4000 + p.val; rw [e4]; omega
    | ⟨1, _⟩ => show win0_2.index t (1 : Fin 2) * 16 + 1 * q.val = q.val; rw [e5]; omega
  rw [hi]
  refine Eq.trans ?_ (lin1_apply (V c main_arg0) (V c main_arg3) ⟨t.val * 4000 + p.val, hrow⟩ q).symm
  refine Finset.sum_congr rfl fun k _ => ?_
  rw [x_read V c t p k ⟨_, hrow⟩ rfl, w_read V c t k q]

/-- An index of the array is in point t's block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v32).slice (win0_2.rect t)).set ↔ _
  rw [View.set_slice_whole, Rect.mem_set_unit]
  exact Iff.rfl

/-- The 25 row blocks tile the array: row r lies in the block of point r / 4000. -/
theorem cover (i : S100000x16.Idx) : ∃ t : Fin cfg0.N, (cfg0.win 2).flush t = true ∧ i ∈ ((cfg0.win 2).blk t).view.set := by
  have hN : cfg0.N = 25 := Gen.N_0
  have hi0 : (i 0).val < 100000 := (i 0).isLt
  have hi1 : (i 1).val < 16 := (i 1).isLt
  have ht : (i 0).val / 4000 < cfg0.N := by rw [hN]; omega
  obtain ⟨-, -, -, -, e4, e5⟩ := idx_facts ⟨(i 0).val / 4000, ht⟩
  have e4' : win0_2.index ⟨(i 0).val / 4000, ht⟩ (0 : Fin 2) = (i 0).val / 4000 := e4
  refine ⟨⟨(i 0).val / 4000, ht⟩, Gen.flush0_2 _, ?_⟩
  rw [mem_blk]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e4']; omega
  | ⟨1, _⟩ =>
    show win0_2.index ⟨(i 0).val / 4000, ht⟩ (1 : Fin 2) * 16 ≤ (i 1).val ∧ (i 1).val < win0_2.index ⟨(i 0).val / 4000, ht⟩ (1 : Fin 2) * 16 + 16
    rw [e5]; omega

/-- After the region the result array holds the product of the two arrays. -/
theorem array_eq (V : (c : Dev nD) → (b : Ref sig .tc) → Buf (Elt Ideal) ((c : Thread nD τ).loc b)) (c : Dev nD) :
    (Gen.dat0 (F := Ideal) V c).arrAt 2 cfg0.N = Cert.Gcn.lin1 (V c main_arg0) (V c main_arg3) :=
  (Gen.dat0 (F := Ideal) V c).arrAt_eq_of_cover 2 (Cert.Gcn.lin1 (V c main_arg0) (V c main_arg3)) (fun t _ => flushed_eq V c t) cover

end Cert.KernelIdeal.Transform1
end
-- ==== Proof.Transform2.lean ====
/-
  Bias, rectifier and the second feature transform, read off the second region: 25 grid points, point t taking rows
  4000 t … 4000 t + 3999 of the aggregate, the whole bias row and the whole weight. The body broadcasts the bias row
  down the block, adds it, takes the maximum with zero, and multiplies by the weight into a zero accumulator; the
  narrowing of both operands is the identity on the extended reals. So entry (p, q) of a block's result is the sum over
  k of max(a(p, k) + b(0, k), 0) · w(k, q); the blocks are restrictions of one whole-array function and tile the
  result, so the result array ends as that function.
-/
import proofs.«153694_j9844065042433_1_alg».proof.Proof.Spec
import proofs.«153694_j9844065042433_1_alg».proof.Proof.Gen.KernelIdeal.Frame
import Idealize.ShloMosaic.Lib.Pipeline.Value
import Idealize.ShloMosaic.Lib.ValueIdx
import Idealize.ShloMosaic.PureOps.Ideal.Laws

set_option maxRecDepth 16384
noncomputable section
namespace Cert.KernelIdeal.Transform2
open Cert.KernelIdeal Cert.KernelIdeal.Gen Idealize.ShloMosaic Idealize.ShloMosaic.TcCoe Idealize.SL.Sem
open Idealize.ShloMosaic.ValueIdx

/-- Output row coordinate of the left operand's index in the block product. -/
theorem lhs_row (i : S4000x40.Idx) (q : dot_S4000x16_S16x40_S4000x40_1_0_0_1_n_n.contr.Idx) :
    (dot_S4000x16_S16x40_S4000x40_1_0_0_1_n_n.lhsIdx i q 0).val = (i 0).val := by
  unfold DotDims.lhsIdx
  rw [dif_neg (show ¬(0 : Fin S4000x16.rank) ∈ dot_S4000x16_S16x40_S4000x40_1_0_0_1_n_n.lhsBatch by decide), dif_pos (show (0 : Fin S4000x16.rank) ∈ dot_S4000x16_S16x40_S4000x40_1_0_0_1_n_n.lhsNonContracting by decide)]
  rfl
/-- The left operand's column is the contracted coordinate. -/
theorem lhs_col (i : S4000x40.Idx) (q : dot_S4000x16_S16x40_S4000x40_1_0_0_1_n_n.contr.Idx) :
    (dot_S4000x16_S16x40_S4000x40_1_0_0_1_n_n.lhsIdx i q 1).val = (q ⟨0, by decide⟩).val :=
  dot_S4000x16_S16x40_S4000x40_1_0_0_1_n_n.lhsIdx_val_of_single rfl i q
/-- The right operand's row is the contracted coordinate. -/
theorem rhs_row (i : S4000x40.Idx) (q : dot_S4000x16_S16x40_S4000x40_1_0_0_1_n_n.contr.Idx) :
    (dot_S4000x16_S16x40_S4000x40_1_0_0_1_n_n.rhsIdx i q 0).val = (q ⟨0, by decide⟩).val :=
  dot_S4000x16_S16x40_S4000x40_1_0_0_1_n_n.rhsIdx_val_of_single rfl i q
/-- The right operand's column is the output's column. -/
theorem rhs_col (i : S4000x40.Idx) (q : dot_S4000x16_S16x40_S4000x40_1_0_0_1_n_n.contr.Idx) :
    (dot_S4000x16_S16x40_S4000x40_1_0_0_1_n_n.rhsIdx i q 1).val = (i 1).val := by
  unfold DotDims.rhsIdx
  rw [dif_neg (show ¬(1 : Fin S16x40.rank) ∈ dot_S4000x16_S16x40_S4000x40_1_0_0_1_n_n.rhsBatch by decide), dif_pos (show (1 : Fin S16x40.rank) ∈ dot_S4000x16_S16x40_S4000x40_1_0_0_1_n_n.rhsNonContracting by decide)]
  rfl

/-- The bias row broadcast down the block, read at (p, k), is the row's entry (0, k). -/
theorem bias_apply (b : Vec Ideal S1x16 .f32) (p : Fin 4000) (k : Fin 16) :
    broadcastTo S4000x16 b broadcasts_S1x16_S4000x16 (ix2 p k) = b (ix2 (0 : Fin 1) k) :=
  broadcastTo_apply b broadcasts_S1x16_S4000x16 (ix2 p k) (ix2 (0 : Fin 1) k) (fun a => by
    match a with
    | ⟨0, _⟩ => rfl
    | ⟨1, _⟩ => rfl)

/-- The hidden block at an index: bias added, then the maximum with zero. -/
theorem hidden_apply (b : Vec Ideal S1x16 .f32) (a : Vec Ideal S4000x16 .f32) (p : Fin 4000) (k : Fin 16) :
    (maximumf (addf (shapeCast S4000x16 a shapeCasts_S4000x16_S4000x16)
        (broadcastTo S4000x16 (shapeCast S1x16 (shapeCast S1x16 b shapeCasts_S1x16_S1x16) shapeCasts_S1x16_S1x16) broadcasts_S1x16_S4000x16))
      (broadcast S4000x16 (Scalar.ofBits (F := Ideal) .f32 0x00000000#32)) : FVec Ideal S4000x16 .f32) (ix2 p k)
      = max (a (ix2 p k) + b (ix2 (0 : Fin 1) k)) (Ideal.ofBits .f32 0x00000000#32) := by
  rw [shapeCast_self, shapeCast_self, shapeCast_self]
  show max (a (ix2 p k) + broadcastTo S4000x16 b broadcasts_S1x16_S4000x16 (ix2 p k)) (Ideal.ofBits .f32 0x00000000#32) = _
  rw [bias_apply]

/-- The block's payload at an index: the sum over the hidden axis of the rectified, biased aggregate times the weight. -/
theorem pay_apply (b : Vec Ideal S1x16 .f32) (a : Vec Ideal S4000x16 .f32) (w : Vec Ideal S16x40 .f32) (p : Fin 4000) (q : Fin 40) :
    Gen.k1_pay1 (F := Ideal) b a w (ix2 p q)
      = ∑ k : Fin 16, max (a (ix2 p k) + b (ix2 (0 : Fin 1) k)) (Ideal.ofBits .f32 0x00000000#32) * w (ix2 k q) := by
  unfold Gen.k1_pay1
  refine (Ideal.matmul_constant_zero_apply dot_S4000x16_S16x40_S4000x40_1_0_0_1_n_n none _ _ (ix2 p q)).trans ?_
  rw [← Equiv.sum_comp (contrEquiv1 dot_S4000x16_S16x40_S4000x40_1_0_0_1_n_n 16 rfl rfl).symm]
  refine Finset.sum_congr rfl fun k _ => ?_
  have hk := contrEquiv1_symm_val dot_S4000x16_S16x40_S4000x40_1_0_0_1_n_n 16 rfl rfl k
  have el : dot_S4000x16_S16x40_S4000x40_1_0_0_1_n_n.lhsIdx (ix2 p q) ((contrEquiv1 dot_S4000x16_S16x40_S4000x40_1_0_0_1_n_n 16 rfl rfl).symm k) = ix2 p k := funext fun a => Fin.ext (by
    match a with
    | ⟨0, _⟩ => exact lhs_row _ _
    | ⟨1, _⟩ => exact (lhs_col _ _).trans hk)
  have er : dot_S4000x16_S16x40_S4000x40_1_0_0_1_n_n.rhsIdx (ix2 p q) ((contrEquiv1 dot_S4000x16_S16x40_S4000x40_1_0_0_1_n_n 16 rfl rfl).symm k) = ix2 k q := funext fun a => Fin.ext (by
    match a with
    | ⟨0, _⟩ => exact (rhs_row _ _).trans hk
    | ⟨1, _⟩ => exact rhs_col _ _)
  rw [el, er]
  exact congrArg (· * w (ix2 k q)) (hidden_apply b a p k)

theorem hz : (![0, 0] : Fin 2 → Nat) = fun _ => 0 := funext fun a => by fin_cases a <;> rfl

/-- The printed index maps over the grid: point t takes block row t of the aggregate and of the result, and the one
    block of the bias row and of the weight. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point t is rows 4000 t … 4000 t + 3999 of the array. -/
theorem a_read (V : (c : Dev nD) → (b : Ref sig .tc) → Buf (Elt Ideal) ((c : Thread nD τ).loc b)) (c : Dev nD) (t : Fin cfg1.N) (p : Fin 4000) (k : Fin 16) (r : Fin 100000)
    (hr : r.val = t.val * 4000 + p.val) :
    (Gen.iblk1 (F := Ideal) V c 0 t : Vec Ideal S4000x16 .f32) (ix2 p k) = (V c main_v45 : FVec Ideal ⟨2, ![100000, 16]⟩ .f32) (ix2 r k) := by
  obtain ⟨e0, e1, -, -, -, -, -, -⟩ := idx_facts t
  show V c main_v45 (((cfg1.win 0).blk t).view.emb (ix2 p k)) = V c main_v45 (ix2 r k)
  have h : ((cfg1.win 0).blk t).view.emb (ix2 p k) = ix2 r k := by
    funext a; apply Fin.ext
    match a with
    | ⟨0, _⟩ => show win1_0.index t (0 : Fin 2) * 4000 + 1 * p.val = r.val; rw [e0, hr]; omega
    | ⟨1, _⟩ => show win1_0.index t (1 : Fin 2) * 16 + 1 * k.val = k.val; rw [e1]; omega
  rw [h]

/-- The bias row's one block is the whole row, at every point. -/
theorem b_read (V : (c : Dev nD) → (b : Ref sig .tc) → Buf (Elt Ideal) ((c : Thread nD τ).loc b)) (c : Dev nD) (t : Fin cfg1.N) (k : Fin 16) :
    (Gen.iblk1 (F := Ideal) V c 1 t : Vec Ideal S1x16 .f32) (ix2 (0 : Fin 1) k) = (V c main_v46 : FVec Ideal ⟨2, ![1, 16]⟩ .f32) (ix2 (0 : Fin 1) k) := by
  obtain ⟨-, -, e2, e3, -, -, -, -⟩ := idx_facts t
  show V c main_v46 (((cfg1.win 1).blk t).view.emb (ix2 (0 : Fin 1) k)) = V c main_v46 (ix2 (0 : Fin 1) k)
  have h : ((cfg1.win 1).blk t).view.emb (ix2 (0 : Fin 1) k) = ix2 (0 : Fin 1) k := by
    funext a; apply Fin.ext
    match a with
    | ⟨0, _⟩ => show win1_1.index t (0 : Fin 2) * 1 + 1 * 0 = 0; rw [e2]
    | ⟨1, _⟩ => show win1_1.index t (1 : Fin 2) * 16 + 1 * k.val = k.val; rw [e3]; omega
  rw [h]

/-- The weight's one block is the whole array, at every point. -/
theorem w_read (V : (c : Dev nD) → (b : Ref sig .tc) → Buf (Elt Ideal) ((c : Thread nD τ).loc b)) (c : Dev nD) (t : Fin cfg1.N) (k : Fin 16) (q : Fin 40) :
    (Gen.iblk1 (F := Ideal) V c 2 t : Vec Ideal S16x40 .f32) (ix2 k q) = (V c main_arg5 : FVec Ideal ⟨2, ![16, 40]⟩ .f32) (ix2 k q) := by
  obtain ⟨-, -, -, -, e4, e5, -, -⟩ := idx_facts t
  show V c main_arg5 (((cfg1.win 2).blk t).view.emb (ix2 k q)) = V c main_arg5 (ix2 k q)
  have h : ((cfg1.win 2).blk t).view.emb (ix2 k q) = ix2 k q := by
    funext a; apply Fin.ext
    match a with
    | ⟨0, _⟩ => show win1_2.index t (0 : Fin 2) * 16 + 1 * k.val = k.val; rw [e4]; omega
    | ⟨1, _⟩ => show win1_2.index t (1 : Fin 2) * 40 + 1 * q.val = q.val; rw [e5]; omega
  rw [h]

/-- Bias, rectifier and the second transform of the arrays at explicit coordinates. -/
theorem lin2_apply (a : FVec Ideal ⟨2, ![100000, 16]⟩ .f32) (b : FVec Ideal ⟨2, ![1, 16]⟩ .f32) (w : FVec Ideal ⟨2, ![16, 40]⟩ .f32)
    (r : Fin 100000) (q : Fin 40) :
    Cert.Gcn.lin2 a b w (ix2 r q)
      = ∑ k : Fin 16, max (a (ix2 r k) + b (ix2 (0 : Fin 1) k)) (Ideal.ofBits .f32 0x00000000#32) * w (ix2 k q) := rfl

/-- What point t writes back is block t of that function of the arrays. -/
theorem flushed_eq (V : (c : Dev nD) → (b : Ref sig .tc) → Buf (Elt Ideal) ((c : Thread nD τ).loc b)) (c : Dev nD) (t : Fin cfg1.N) :
    (Gen.dat1 (F := Ideal) V c).flushed 3 t
      = ((cfg1.win 3).blk t).view.read (Elt Ideal) (Cert.Gcn.lin2 (V c main_v45) (V c main_v46) (V c main_arg5)) := by
  show (cfg1.win 3).cut (grid1.coords t) ((Gen.dat1 (F := Ideal) V c).after 3 t) = _
  rw [Gen.after1_3]
  unfold Gen.out1_3
  rw [View.canon_unit_zero hz]
  simp only [View.ld_unit_zero (S := S4000x16) hz, View.ld_unit_zero (S := S1x16) hz, View.ld_unit_zero (S := S16x40) hz]
  obtain ⟨-, -, -, -, -, -, e6, e7⟩ := idx_facts t
  have hN : cfg1.N = 25 := Gen.N_1
  have ht : t.val < cfg1.N := t.isLt
  funext j
  obtain ⟨p, q, rfl⟩ : ∃ (p : Fin 4000) (q : Fin 40), j = ix2 p q := ⟨j 0, j 1, eq_ix2 j⟩
  have hrow : t.val * 4000 + p.val < 100000 := by have := p.isLt; omega
  show Gen.k1_pay1 (F := Ideal) (Gen.iblk1 V c 1 t) (Gen.iblk1 V c 0 t) (Gen.iblk1 V c 2 t) (ix2 p q)
    = Cert.Gcn.lin2 (V c main_v45) (V c main_v46) (V c main_arg5) (((cfg1.win 3).blk t).view.emb (ix2 p q))
  refine (pay_apply (Gen.iblk1 V c 1 t) (Gen.iblk1 V c 0 t) (Gen.iblk1 V c 2 t) p q).trans ?_
  have hi : ((cfg1.win 3).blk t).view.emb (ix2 p q) = ix2 (⟨t.val * 4000 + p.val, hrow⟩ : Fin 100000) q := by
    funext a; apply Fin.ext
    match a with
    | ⟨0, _⟩ => show win1_3.index t (0 : Fin 2) * 4000 + 1 * p.val = t.val * 4000 + p.val; rw [e6]; omega
    | ⟨1, _⟩ => show win1_3.index t (1 : Fin 2) * 40 + 1 * q.val = q.val; rw [e7]; omega
  rw [hi]
  refine Eq.trans ?_ (lin2_apply (V c main_v45) (V c main_v46) (V c main_arg5) ⟨t.val * 4000 + p.val, hrow⟩ q).symm
  refine Finset.sum_congr rfl fun k _ => ?_
  rw [a_read V c t p k ⟨_, hrow⟩ rfl, b_read V c t k, w_read V c t k q]

/-- An index of the array is in point t's block iff each coordinate is in the block's range on its axis. -/
theorem mem_blk (t : Fin cfg1.N) (i : S100000x40.Idx) :
    i ∈ ((cfg1.win 3).blk t).view.set ↔ ∀ a : Fin 2, win1_3.index t a * S4000x40.size a ≤ (i a).val ∧ (i a).val < win1_3.index t a * S4000x40.size a + S4000x40.size a := by
  show i ∈ ((View.whole main_v47).slice (win1_3.rect t)).set ↔ _
  rw [View.set_slice_whole, Rect.mem_set_unit]
  exact Iff.rfl

/-- The 25 row blocks tile the array: row r lies in the block of point r / 4000. -/
theorem cover (i : S100000x40.Idx) : ∃ t : Fin cfg1.N, (cfg1.win 3).flush t = true ∧ i ∈ ((cfg1.win 3).blk t).view.set := by
  have hN : cfg1.N = 25 := Gen.N_1
  have hi0 : (i 0).val < 100000 := (i 0).isLt
  have hi1 : (i 1).val < 40 := (i 1).isLt
  have ht : (i 0).val / 4000 < cfg1.N := by rw [hN]; omega
  obtain ⟨-, -, -, -, -, -, e6, e7⟩ := idx_facts ⟨(i 0).val / 4000, ht⟩
  have e6' : win1_3.index ⟨(i 0).val / 4000, ht⟩ (0 : Fin 2) = (i 0).val / 4000 := e6
  refine ⟨⟨(i 0).val / 4000, ht⟩, Gen.flush1_3 _, ?_⟩
  rw [mem_blk]
  intro a
  match a with
  | ⟨0, _⟩ =>
    show win1_3.index ⟨(i 0).val / 4000, ht⟩ (0 : Fin 2) * 4000 ≤ (i 0).val ∧ (i 0).val < win1_3.index ⟨(i 0).val / 4000, ht⟩ (0 : Fin 2) * 4000 + 4000
    rw [e6']; omega
  | ⟨1, _⟩ =>
    show win1_3.index ⟨(i 0).val / 4000, ht⟩ (1 : Fin 2) * 40 ≤ (i 1).val ∧ (i 1).val < win1_3.index ⟨(i 0).val / 4000, ht⟩ (1 : Fin 2) * 40 + 40
    rw [e7]; omega

/-- After the region the result array holds the rectified, biased aggregate times the weight. -/
theorem array_eq (V : (c : Dev nD) → (b : Ref sig .tc) → Buf (Elt Ideal) ((c : Thread nD τ).loc b)) (c : Dev nD) :
    (Gen.dat1 (F := Ideal) V c).arrAt 3 cfg1.N = Cert.Gcn.lin2 (V c main_v45) (V c main_v46) (V c main_arg5) :=
  (Gen.dat1 (F := Ideal) V c).arrAt_eq_of_cover 3 (Cert.Gcn.lin2 (V c main_v45) (V c main_v46) (V c main_arg5)) (fun t _ => flushed_eq V c t) cover

end Cert.KernelIdeal.Transform2
end
-- ==== Proof.LogSoftmax.lean ====
import proofs.«153694_j9844065042433_1_alg».proof.Proof.Spec
import proofs.«153694_j9844065042433_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-
  The log-softmax region, read whole: after its 25 grid points the region's output array holds, at row r and class j,
  (y(r, j) − M(r)) − log (sum over k of exp (y(r, k) − M(r))), with y(r, k) = z(r, k) + b(0, k) the biased scores and
  M(r) the maximum of row r of y folded from −∞.

  The body's payload is read at an index of its 4000 × 40 block (the two lane reductions as a fold of max and a finite
  sum over the 40 lanes, the keepdims columns as the reduced vector at the row); each point's write-back is then the
  block of that array function at rows 4000·t … 4000·t + 3999, and the 25 row blocks tile the 100000 rows.
-/
set_option maxRecDepth 16384
noncomputable section
namespace Cert.KernelIdeal.LogSoftmax
open Cert.KernelIdeal Cert.KernelIdeal.Gen Idealize.ShloMosaic Idealize.ShloMosaic.TcCoe Idealize.SL.Sem
open Idealize.ShloMosaic.ValueIdx

/-! ## The keepdims column forms, read at an index -/

section Column
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` kept as a column and broadcast along the lanes reads, at `(p, c)`, the vector at `p`. -/
theorem column_apply {a b : ℕ} (x : (⟨1, ![a]⟩ : Shape).Idx → α) (h : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x h) hb (ix2 p c) = x (ix1 p) :=
  (broadcastTo_a1_ab_apply _ hb p c).trans (shapeCast_a_a1_apply x h p 0)

end Column

/-! ## The lane reductions of a 4000 × 40 block, read at a row -/

/-- The index a lane reduction reads at row `p`, lane `k`, is `(p, k)`. -/
theorem lift_row (h : S4000x40.Reduces [1] S4000) (p : Fin 4000) (k : Fin 40) :
    h.lift (ix1 p) k = ix2 p k := by
  funext a
  apply Fin.ext
  match a with
  | ⟨0, _⟩ => rfl
  | ⟨1, _⟩ => rfl

/-- The maximum of row `p` of a block, folded from −∞. -/
def rowMaxOf (y : FVec Ideal S4000x40 .f32) (p : Fin 4000) : EReal :=
  (Finset.univ : Finset (Fin 40)).fold max (Ideal.ofBits .f32 0xFF800000#32) (fun k => y (ix2 p k))

/-- The lane maximum of a block read at row `p`. -/
theorem laneMax_apply (y : FVec Ideal S4000x40 .f32) (h : S4000x40.Reduces [1] S4000) (hφ : FKind.Formats .f32)
    (hacc : (0xFF800000#32 : BitVec 32) = FKind.maximumf.neutral .f32 hφ) (p : Fin 4000) :
    multiReduction .maximumf [1] S4000 y 0xFF800000#32 h hφ hacc (ix1 p) = rowMaxOf y p := by
  refine (Ideal.multiReduction_maximumf_single y _ h hφ hacc (ix1 p)).trans ?_
  show (Finset.univ : Finset (Fin 40)).fold max (Ideal.ofBits .f32 0xFF800000#32) (y ∘ h.lift (ix1 p)) = _
  unfold rowMaxOf
  exact congrArg (fun f : Fin 40 → EReal => (Finset.univ : Finset (Fin 40)).fold max (Ideal.ofBits .f32 0xFF800000#32) f)
    (funext fun k => congrArg y (lift_row h p k))

/-- The lane sum of a block read at row `p`. -/
theorem laneSum_apply (e : FVec Ideal S4000x40 .f32) (h : S4000x40.Reduces [1] S4000) (hφ : FKind.Formats .f32)
    (hacc : (0x00000000#32 : BitVec 32) = FKind.add.neutral .f32 hφ) (p : Fin 4000) :
    multiReduction .add [1] S4000 e 0x00000000#32 h hφ hacc (ix1 p) = ∑ k : Fin 40, e (ix2 p k) := by
  refine (Ideal.multiReduction_add_single e _ h hφ hacc (ix1 p)).trans ?_
  show ∑ k : Fin 40, e (h.lift (ix1 p) k) = _
  exact Finset.sum_congr rfl fun k _ => congrArg e (lift_row h p k)

/-- The row-wise log-softmax of a block, shifted by the row's maximum, read at `(p, q)`. -/
theorem logSoftmax_apply (y : FVec Ideal S4000x40 .f32) (h : S4000x40.Reduces [1] S4000) (hφ : FKind.Formats .f32)
    (hm : (0xFF800000#32 : BitVec 32) = FKind.maximumf.neutral .f32 hφ)
    (ha : (0x00000000#32 : BitVec 32) = FKind.add.neutral .f32 hφ)
    (hc : S4000.ShapeCasts S4000x1) (hb : S4000x1.Broadcasts S4000x40) (p : Fin 4000) (q : Fin 40) :
    subf (subf y (broadcastTo S4000x40 (shapeCast S4000x1 (multiReduction .maximumf [1] S4000 y 0xFF800000#32 h hφ hm) hc) hb))
        (broadcastTo S4000x40
          (log (shapeCast S4000x1
            (multiReduction .add [1] S4000
              (exp (subf y (broadcastTo S4000x40 (shapeCast S4000x1 (multiReduction .maximumf [1] S4000 y 0xFF800000#32 h hφ hm) hc) hb)))
              0x00000000#32 h hφ ha) hc)) hb)
        (ix2 p q)
      = (y (ix2 p q) - rowMaxOf y p) - Ideal.log (∑ k : Fin 40, Ideal.exp (y (ix2 p k) - rowMaxOf y p)) := by
  have hshift : ∀ k : Fin 40,
      subf y (broadcastTo S4000x40 (shapeCast S4000x1 (multiReduction .maximumf [1] S4000 y 0xFF800000#32 h hφ hm) hc) hb) (ix2 p k)
        = y (ix2 p k) - rowMaxOf y p := fun k =>
    congrArg (fun m => y (ix2 p k) - m) ((column_apply _ hc hb p k).trans (laneMax_apply y h hφ hm p))
  refine congrArg₂ (fun u v => u - v) (hshift q) ?_
  refine (broadcastTo_a1_ab_apply _ hb p q).trans ?_
  show Ideal.log (shapeCast S4000x1 _ hc (ix2 p (0 : Fin 1))) = _
  refine congrArg Ideal.log ?_
  refine (shapeCast_a_a1_apply _ hc p 0).trans ?_
  refine (laneSum_apply _ h hφ ha p).trans ?_
  exact Finset.sum_congr rfl fun k _ => congrArg Ideal.exp (hshift k)

/-- A block row of scores: z(p, k) + b(0, k). -/
def blockScores (b : Vec Ideal S1x40 .f32) (z : Vec Ideal S4000x40 .f32) (p : Fin 4000) (k : Fin 40) : EReal :=
  z (ix2 p k) + b (ix2 (0 : Fin 1) k)

/-- The biased block: the bias row (through its two identity casts) broadcast over the rows and added. -/
theorem biased_eq (b : FVec Ideal S1x40 .f32) (z : FVec Ideal S4000x40 .f32) (h1 : S1x40.ShapeCasts S1x40)
    (h4 : S4000x40.ShapeCasts S4000x40) (hb : S1x40.Broadcasts S4000x40) :
    addf (shapeCast S4000x40 z h4) (broadcastTo S4000x40 (shapeCast S1x40 (shapeCast S1x40 b h1) h1) hb)
      = fun i => blockScores b z (i 0) (i 1) := by
  funext i
  obtain ⟨p', k', rfl⟩ : ∃ (p' : Fin 4000) (k' : Fin 40), i = ix2 p' k' := ⟨i 0, i 1, eq_ix2 i⟩
  rw [shapeCast_self, shapeCast_self, shapeCast_self]
  exact congrArg (fun u => z (ix2 p' k') + u) (broadcastTo_1b_ab_apply b hb p' k')

/-- The body's payload at `(p, q)`: the shifted score less the log of the row's sum of shifted exponentials. -/
theorem payload_apply (b : Vec Ideal S1x40 .f32) (z : Vec Ideal S4000x40 .f32) (p : Fin 4000) (q : Fin 40) :
    Gen.k2_pay1 (F := Ideal) b z (ix2 p q)
      = (blockScores b z p q - rowMaxOf (fun i => blockScores b z (i 0) (i 1)) p)
        - Ideal.log (∑ k : Fin 40, Ideal.exp (blockScores b z p k - rowMaxOf (fun i => blockScores b z (i 0) (i 1)) p)) := by
  unfold Gen.k2_pay1
  rw [biased_eq b z]
  exact logSoftmax_apply _ _ _ _ _ _ _ p q

/-- A block row whose scores are an array row's has that row's log-softmax. -/
theorem lsm_of_row (B : Vec Ideal S1x40 .f32) (Z : Vec Ideal S4000x40 .f32)
    (z : FVec Ideal ⟨2, ![100000, 40]⟩ .f32) (b : FVec Ideal ⟨2, ![1, 40]⟩ .f32)
    (p : Fin 4000) (q : Fin 40) (r : Fin 100000) (q' : Fin 40)
    (hZ : ∀ k : Fin 40, Z (ix2 p k) = z (ix2 r k)) (hB : ∀ k : Fin 40, B (ix2 (0 : Fin 1) k) = b (ix2 (0 : Fin 1) k))
    (hq : q = q') :
    (blockScores B Z p q - rowMaxOf (fun i => blockScores B Z (i 0) (i 1)) p)
        - Ideal.log (∑ k : Fin 40, Ideal.exp (blockScores B Z p k - rowMaxOf (fun i => blockScores B Z (i 0) (i 1)) p))
      = Cert.Gcn.lsm z b (ix2 r q') := by
  subst hq
  have hrow : blockScores B Z p = Cert.Gcn.scores z b r := funext fun k => congrArg₂ (fun u v : EReal => u + v) (hZ k) (hB k)
  show (blockScores B Z p q - (Finset.univ : Finset (Fin 40)).fold max (Ideal.ofBits .f32 0xFF800000#32) (blockScores B Z p))
        - Ideal.log (∑ k : Fin 40, Ideal.exp (blockScores B Z p k
            - (Finset.univ : Finset (Fin 40)).fold max (Ideal.ofBits .f32 0xFF800000#32) (blockScores B Z p)))
      = (Cert.Gcn.scores z b r q - (Finset.univ : Finset (Fin 40)).fold max (Ideal.ofBits .f32 0xFF800000#32) (Cert.Gcn.scores z b r))
        - Ideal.log (∑ k : Fin 40, Ideal.exp (Cert.Gcn.scores z b r k
            - (Finset.univ : Finset (Fin 40)).fold max (Ideal.ofBits .f32 0xFF800000#32) (Cert.Gcn.scores z b r)))
  rw [hrow]

/-- The zero offsets of a whole-block access, as a constant function. -/
theorem hz : (![0, 0] : Fin 2 → Nat) = fun _ => 0 := funext fun a => by fin_cases a <;> rfl

/-- The printed index maps, decided over the grid: the score window moves with the output window along the rows, the
    bias window stays at block (0, 0), no window moves along the lanes, and point `t` writes row block `t`. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is block `t` of the log-softmax of the arrays the region finds. -/
theorem flushed_eq (V : (c : Dev nD) → (b : Ref sig .tc) → Buf (Elt Ideal) ((c : Thread nD τ).loc b)) (c : Dev nD)
    (t : Fin cfg2.N) :
    (Gen.dat2 (F := Ideal) V c).flushed 2 t
      = ((cfg2.win 2).blk t).view.read (Elt Ideal) (Cert.Gcn.lsm (V c main_v60) (V c main_v61)) := by
  show (cfg2.win 2).cut (grid2.coords t) ((Gen.dat2 (F := Ideal) V c).after 2 t) = _
  rw [Gen.after2_2]
  unfold Gen.out2_2
  rw [View.canon_unit_zero hz]
  simp only [View.ld_unit_zero (S := S1x40) hz, View.ld_unit_zero (S := S4000x40) hz]
  obtain ⟨e0, e1, e2, e3, e4, e5⟩ := idx_facts t
  funext j
  obtain ⟨p, q, rfl⟩ : ∃ (p : Fin 4000) (q : Fin 40), j = ix2 p q := ⟨j 0, j 1, eq_ix2 j⟩
  show Gen.k2_pay1 (F := Ideal) (Gen.iblk2 V c 1 t) (Gen.iblk2 V c 0 t) (ix2 p q)
    = Cert.Gcn.lsm (V c main_v60) (V c main_v61) (((cfg2.win 2).blk t).view.emb (ix2 p q))
  refine (payload_apply (Gen.iblk2 V c 1 t) (Gen.iblk2 V c 0 t) p q).trans ?_
  have hp : p.val < 4000 := p.isLt
  have ht : t.val < 25 := lt_of_lt_of_eq t.isLt Gen.N_2
  have hi : ((cfg2.win 2).blk t).view.emb (ix2 p q)
      = ix2 (⟨t.val * 4000 + p.val, by omega⟩ : Fin 100000) q := by
    funext a; apply Fin.ext
    match a with
    | ⟨0, _⟩ => show win2_2.index t (0 : Fin 2) * 4000 + 1 * p.val = t.val * 4000 + p.val; omega
    | ⟨1, _⟩ => show win2_2.index t (1 : Fin 2) * 40 + 1 * q.val = q.val; omega
  rw [hi]
  have h0 : ∀ k : Fin 40, ((cfg2.win 0).blk t).view.emb (ix2 p k) = ix2 (⟨t.val * 4000 + p.val, by omega⟩ : Fin 100000) k := by
    intro k; funext a; apply Fin.ext
    match a with
    | ⟨0, _⟩ => show win2_0.index t (0 : Fin 2) * 4000 + 1 * p.val = t.val * 4000 + p.val; omega
    | ⟨1, _⟩ => show win2_0.index t (1 : Fin 2) * 40 + 1 * k.val = k.val; omega
  have h1 : ∀ k : Fin 40, ((cfg2.win 1).blk t).view.emb (ix2 (0 : Fin 1) k) = ix2 (0 : Fin 1) k := by
    intro k; funext a; apply Fin.ext
    match a with
    | ⟨0, _⟩ => show win2_1.index t (0 : Fin 2) * 1 + 1 * 0 = 0; omega
    | ⟨1, _⟩ => show win2_1.index t (1 : Fin 2) * 40 + 1 * k.val = k.val; omega
  refine lsm_of_row _ _ _ _ p q _ q (fun k => ?_) (fun k => ?_) rfl
  · show V c main_v60 (((cfg2.win 0).blk t).view.emb (ix2 p k)) = V c main_v60 (ix2 (⟨t.val * 4000 + p.val, by omega⟩ : Fin 100000) k)
    rw [h0 k]
  · show V c main_v61 (((cfg2.win 1).blk t).view.emb (ix2 (0 : Fin 1) k)) = V c main_v61 (ix2 (0 : Fin 1) k)
    rw [h1 k]

/-- An index of the array is in point `t`'s block iff each coordinate is in the block's range on its axis. -/
theorem mem_blk (t : Fin cfg2.N) (i : S100000x40.Idx) :
    i ∈ ((cfg2.win 2).blk t).view.set ↔ ∀ a : Fin 2, win2_2.index t a * S4000x40.size a ≤ (i a).val
      ∧ (i a).val < win2_2.index t a * S4000x40.size a + S4000x40.size a := by
  show i ∈ ((View.whole main_v62).slice (win2_2.rect t)).set ↔ _
  rw [View.set_slice_whole, Rect.mem_set_unit]
  exact Iff.rfl

/-- The output's 25 row blocks tile the array: row `r` is in the block of point `r / 4000`. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 25 := Gen.N_2
  obtain ⟨t, htv⟩ : ∃ t : Fin cfg2.N, t.val = (i 0).val / 4000 := ⟨⟨(i 0).val / 4000, by rw [hN]; omega⟩, rfl⟩
  obtain ⟨e0, e1, e2, e3, e4, e5⟩ := idx_facts t
  refine ⟨t, Gen.flush2_2 t, ?_⟩
  rw [mem_blk]
  intro a
  match a with
  | ⟨0, _⟩ =>
    show win2_2.index t (0 : Fin 2) * 4000 ≤ (i 0).val ∧ (i 0).val < win2_2.index t (0 : Fin 2) * 4000 + 4000
    omega
  | ⟨1, _⟩ =>
    show win2_2.index t (1 : Fin 2) * 40 ≤ (i 1).val ∧ (i 1).val < win2_2.index t (1 : Fin 2) * 40 + 40
    omega

/-- The array the region leaves: the row-wise log-softmax of the biased scores, whole. -/
theorem array_eq (V : (c : Dev nD) → (b : Ref sig .tc) → Buf (Elt Ideal) ((c : Thread nD τ).loc b)) (c : Dev nD) :
    (Gen.dat2 (F := Ideal) V c).arrAt 2 cfg2.N = Cert.Gcn.lsm (V c main_v60) (V c main_v61) :=
  (Gen.dat2 (F := Ideal) V c).arrAt_eq_of_cover 2 (Cert.Gcn.lsm (V c main_v60) (V c main_v61))
    (fun t _ => flushed_eq V c t) cover

end Cert.KernelIdeal.LogSoftmax
end
-- ==== Proof.Model.lean ====
/-
  The whole computation as ONE function of the seven arguments, on the extended reals: the first transform of the
  features; its aggregation over the edges (with self loops, scaled by the symmetric degree norm); bias, rectifier and the
  second transform; the aggregation again; bias and the row-wise log-softmax. Both programs are proved to end with their
  result at this function of their arguments.
-/
import proofs.«153694_j9844065042433_1_alg».proof.Proof.Spec
import proofs.«153694_j9844065042433_1_alg».proof.Proof.Glue

noncomputable section

namespace Cert.Gcn

open Cert.KernelIdeal Cert.KernelIdeal.Gen Idealize.ShloMosaic

/-- Two graph-convolution layers and a row-wise log-softmax. -/
def model (x : (⟨S100000x512, .f32⟩ : BufTy).Contents (Elt Ideal)) (e : (⟨S2x3200000, .i32⟩ : BufTy).Contents (Elt Ideal))
    (w : (⟨S3200000, .f32⟩ : BufTy).Contents (Elt Ideal)) (W1 : (⟨S512x16, .f32⟩ : BufTy).Contents (Elt Ideal))
    (b1 : (⟨S16, .f32⟩ : BufTy).Contents (Elt Ideal)) (W2 : (⟨S16x40, .f32⟩ : BufTy).Contents (Elt Ideal))
    (b2 : (⟨S40, .f32⟩ : BufTy).Contents (Elt Ideal)) : (⟨S100000x40, .f32⟩ : BufTy).Contents (Elt Ideal) :=
  lsm (Glue.aggregate40 (Glue.ends0 e) (Glue.ends1 e) (Glue.norm e w)
        (lin2 (Glue.aggregate16 (Glue.ends0 e) (Glue.ends1 e) (Glue.norm e w) (lin1 x W1))
          (shapeCast S1x16 b1 shapeCasts_S16_S1x16) W2))
    (shapeCast S1x40 b2 shapeCasts_S40_S1x40)

end Cert.Gcn

end
-- ==== Proof.KernelResult.lean ====
/-
  The idealized kernel's result as one function of its arguments. The result array is what the log-softmax region's
  pipeline leaves: the row-wise log-softmax of the second aggregate plus its bias row. The second aggregate is the
  aggregation of what the second dense region leaves: bias, rectifier and second transform of the first aggregate, which
  is the aggregation of what the first dense region leaves: the first transform of the features. The edge arrays every
  aggregation reads are computed once, before the first region, and carried unchanged through the later segments.
-/
import proofs.«153694_j9844065042433_1_alg».proof.Proof.KernelBoundaries
import proofs.«153694_j9844065042433_1_alg».proof.Proof.Transform1
import proofs.«153694_j9844065042433_1_alg».proof.Proof.Transform2
import proofs.«153694_j9844065042433_1_alg».proof.Proof.LogSoftmax
import proofs.«153694_j9844065042433_1_alg».proof.Proof.Model

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The sources, destinations and norms of the edges, as the second and third regions' stretches find them, are those
    computed before the first region. -/
theorem sources_at_exit0 (c : Dev nD) : W4 m ρ c (Proc.devRef .tc main_v5) = Glue.ends0 (m ((c : Thread nD τ).loc main_arg1)) :=
  (Boundaries.v5_through0 m ρ c).trans (Boundaries.sources_at_entry0 m ρ c)
theorem destinations_at_exit0 (c : Dev nD) : W4 m ρ c (Proc.devRef .tc main_v6) = Glue.ends1 (m ((c : Thread nD τ).loc main_arg1)) :=
  (Boundaries.v6_through0 m ρ c).trans (Boundaries.destinations_at_entry0 m ρ c)
theorem norms_at_exit0 (c : Dev nD) : W4 m ρ c (Proc.devRef .tc main_v31) = Glue.norm (m ((c : Thread nD τ).loc main_arg1)) (m ((c : Thread nD τ).loc main_arg2)) :=
  (Boundaries.v31_through0 m ρ c).trans (Boundaries.norms_at_entry0 m ρ c)
theorem sources_at_exit1 (c : Dev nD) : W6 m ρ c (Proc.devRef .tc main_v5) = Glue.ends0 (m ((c : Thread nD τ).loc main_arg1)) :=
  (Boundaries.v5_through1 m ρ c).trans ((Boundaries.v5_through_stretch1 m ρ c).trans (sources_at_exit0 m ρ c))
theorem destinations_at_exit1 (c : Dev nD) : W6 m ρ c (Proc.devRef .tc main_v6) = Glue.ends1 (m ((c : Thread nD τ).loc main_arg1)) :=
  (Boundaries.v6_through1 m ρ c).trans ((Boundaries.v6_through_stretch1 m ρ c).trans (destinations_at_exit0 m ρ c))
theorem norms_at_exit1 (c : Dev nD) : W6 m ρ c (Proc.devRef .tc main_v31) = Glue.norm (m ((c : Thread nD τ).loc main_arg1)) (m ((c : Thread nD τ).loc main_arg2)) :=
  (Boundaries.v31_through1 m ρ c).trans ((Boundaries.v31_through_stretch1 m ρ c).trans (norms_at_exit0 m ρ c))

/-- The biases and the second weight matrix reach the segments that read them as launched. -/
theorem bias1_at_exit0 (c : Dev nD) : W4 m ρ c (Proc.devRef .tc main_arg4) = m ((c : Thread nD τ).loc main_arg4) :=
  (Boundaries.arg4_through0 m ρ c).trans (Boundaries.arg4_at_entry0 m ρ c)
theorem weight2_at_entry1 (c : Dev nD) : W5 m ρ c (Proc.devRef .tc main_arg5) = m ((c : Thread nD τ).loc main_arg5) :=
  (Boundaries.arg5_through_stretch1 m ρ c).trans ((Boundaries.arg5_through0 m ρ c).trans (Boundaries.arg5_at_entry0 m ρ c))
theorem bias2_at_exit1 (c : Dev nD) : W6 m ρ c (Proc.devRef .tc main_arg6) = m ((c : Thread nD τ).loc main_arg6) :=
  (Boundaries.arg6_through1 m ρ c).trans ((Boundaries.arg6_through_stretch1 m ρ c).trans ((Boundaries.arg6_through0 m ρ c).trans (Boundaries.arg6_at_entry0 m ρ c)))

/-- What each region leaves, as its whole-array function of what it found. -/
theorem transform1_value (c : Dev nD) : W4 m ρ c (Proc.devRef .tc main_v32)
    = Cert.Gcn.lin1 (W3 m ρ c (Proc.devRef .tc main_arg0)) (W3 m ρ c (Proc.devRef .tc main_arg3)) :=
  (Boundaries.transform1_at_exit0 m ρ c).trans (Transform1.array_eq (V3 m ρ) c)
theorem transform2_value (c : Dev nD) : W6 m ρ c (Proc.devRef .tc main_v47)
    = Cert.Gcn.lin2 (W5 m ρ c (Proc.devRef .tc main_v45)) (W5 m ρ c (Proc.devRef .tc main_v46)) (W5 m ρ c (Proc.devRef .tc main_arg5)) :=
  (Boundaries.transform2_at_exit1 m ρ c).trans (Transform2.array_eq (V5 m ρ) c)
theorem logSoftmax_value (c : Dev nD) : W8 m ρ c (Proc.devRef .tc main_v62)
    = Cert.Gcn.lsm (W7 m ρ c (Proc.devRef .tc main_v60)) (W7 m ρ c (Proc.devRef .tc main_v61)) :=
  (Boundaries.result_at_exit2 m ρ c).trans (LogSoftmax.array_eq (V7 m ρ) c)

/-- THE RESULT: at the last boundary the result buffer holds the model of the arguments as launched. -/
theorem result_eq (c : Dev nD) : W8 m ρ c (Proc.devRef .tc main_v62)
    = Cert.Gcn.model (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [logSoftmax_value, Boundaries.aggregate2_at_entry2, Boundaries.bias2_at_entry2, sources_at_exit1, destinations_at_exit1, norms_at_exit1,
    bias2_at_exit1, transform2_value, Boundaries.aggregate1_at_entry1, Boundaries.bias1_at_entry1, weight2_at_entry1, sources_at_exit0,
    destinations_at_exit0, norms_at_exit0, bias1_at_exit0, transform1_value, Boundaries.arg0_at_entry0, Boundaries.arg3_at_entry0]
  rfl

end Cert.KernelIdeal.Result

end
-- ==== Proof.RefChunks.lean ====
/-
  The reference program's operations cut into seven consecutive stretches, and the buffer contents after each: a fold
  through the stretches from the launch memory. The run of the whole program ends every buffer at the last of these.
-/
import proofs.«153694_j9844065042433_1_alg».proof.Proof.RefRun

set_option maxRecDepth 16384

noncomputable section

namespace Cert.ReferenceIdeal.Chunks

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The contents after two lines of operations run one after the other are those after their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 to 23 of @main: the rows of the edge list, the first transform, the ends with the self loops, the weights, the degrees and their inverse square roots. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg3 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_arg2 main_v8 main_v9 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S3300000x1 ![0] bcast_S3300000_S3300000x1_0 : (⟨S3300000, .i32⟩ : BufTy).Contents (Elt F) → (⟨S3300000x1, .i32⟩ : BufTy).Contents (Elt F)),
    ternary main_v10 main_v11 main_v9 main_v12 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v15) (TRef.of (T := ⟨S100000, .f32⟩) main_call0_v1) (TRef.of (T := ⟨S100000, .f32⟩) main_v16) select ]

/-- Operations 24 to 43 of @main: the edge norms. -/
abbrev opsB : List (HloOp τ sig (Elt F)) :=
  [ nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v6 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v19 (broadcastInDim S3300000 ![] bcast_S_S3300000 : (⟨S_, .i32⟩ : BufTy).Contents (Elt F) → (⟨S3300000, .i32⟩ : BufTy).Contents (Elt F)),
    binary main_v6 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v6 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v9 main_v24 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v25 (broadcastInDim S3300000 ![] bcast_S_S3300000 : (⟨S_, .i32⟩ : BufTy).Contents (Elt F) → (⟨S3300000, .i32⟩ : BufTy).Contents (Elt F)),
    binary main_v7 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v27 (broadcastInDim S3300000 ![] bcast_S_S3300000 : (⟨S_, .i32⟩ : BufTy).Contents (Elt F) → (⟨S3300000, .i32⟩ : BufTy).Contents (Elt F)),
    binary main_v7 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v7 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)) ]

/-- Operations 44 to 59 of @main: the first aggregation. -/
abbrev opsC : List (HloOp τ sig (Elt F)) :=
  [ nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v6 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v6 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v6 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v4 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v7 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Operations 60 to 66 of @main: the bias, the rectifier and the second transform. -/
abbrev opsD : List (HloOp τ sig (Elt F)) :=
  [ unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- Operations 67 to 104 of @main: the edge arrays and the norms once more, from the rows. -/
abbrev opsE : List (HloOp τ sig (Elt F)) :=
  [ nullary main_v51 (iotaInDim S100000 32 0),
    binary main_v1 main_v51 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v51 main_v53 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v54 (broadcastInDim S100000 ![] bcast_S_S100000 : (⟨S_, .f32⟩ : BufTy).Contents (Elt F) → (⟨S100000, .f32⟩ : BufTy).Contents (Elt F)),
    binary main_arg2 main_v54 main_v55 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v53 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S3300000 ![] bcast_S_S3300000 : (⟨S_, .i32⟩ : BufTy).Contents (Elt F) → (⟨S3300000, .i32⟩ : BufTy).Contents (Elt F)),
    binary main_v52 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v65 (broadcastInDim S3300000 ![] bcast_S_S3300000 : (⟨S_, .i32⟩ : BufTy).Contents (Elt F) → (⟨S3300000, .i32⟩ : BufTy).Contents (Elt F)),
    binary main_v52 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v52 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v62 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v69 main_v55 main_v70 (mulf : (⟨S3300000, .f32⟩ : BufTy).Contents (Elt F) → (⟨S3300000, .f32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v53 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v53 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v53 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v62 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)) ]

/-- Operations 105 to 120 of @main: the second aggregation. -/
abbrev opsG : List (HloOp τ sig (Elt F)) :=
  [ nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v52 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v52 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v52 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v50 main_v84 main_v85 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v78 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x40 ![0, 1] bcast_S3300000x1_S3300000x40_0_1 : (⟨S3300000x1, .f32⟩ : BufTy).Contents (Elt F) → (⟨S3300000x40, .f32⟩ : BufTy).Contents (Elt F)),
    binary main_v85 main_v87 main_v88 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v53 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]

/-- Operations 121 to 138 of @main: the bias and the row-wise log-softmax. -/
abbrev opsH : List (HloOp τ sig (Elt F)) :=
  [ unary main_arg6 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

set_option maxRecDepth 65536 in
/-- The program's operations are the seven stretches in order. -/
theorem ops_split : (ops : List (HloOp τ sig (Elt F))) = opsA ++ (opsB ++ (opsC ++ (opsD ++ (opsE ++ (opsG ++ opsH))))) := rfl

variable (m : (ℓ : Loc nD τ sig) → Buf (Elt F) ℓ)

/-- The buffer contents after each stretch. -/
def R1 (d : Dev nD) : Valuation τ sig (Elt F) := after opsA (launchContents m d)
def R2 (d : Dev nD) : Valuation τ sig (Elt F) := after opsB (R1 m d)
def R3 (d : Dev nD) : Valuation τ sig (Elt F) := after opsC (R2 m d)
def R4 (d : Dev nD) : Valuation τ sig (Elt F) := after opsD (R3 m d)
def R5 (d : Dev nD) : Valuation τ sig (Elt F) := after opsE (R4 m d)
def R6 (d : Dev nD) : Valuation τ sig (Elt F) := after opsG (R5 m d)
def R7 (d : Dev nD) : Valuation τ sig (Elt F) := after opsH (R6 m d)

/-- The fold over the whole program is the last of them. -/
theorem fold_eq (d : Dev nD) : after ops (launchContents m d) = R7 m d := by
  rw [ops_split]
  simp only [after_append]
  rfl

end Cert.ReferenceIdeal.Chunks

end
-- ==== Proof.RefStages.lean ====
/-
  The reference's dense stages as named functions of whole arrays: the bias added to every row and the rectifier; the
  bias added to every row of the class scores; and the row-wise log-softmax as the reference spells it (the row maximum
  by a reduction from −∞, joined once more with −∞; the shifted scores; the logarithm of the row sum of their
  exponentials, taken from zero; the difference).
-/
import proofs.«153694_j9844065042433_1_alg».proof.Proof.Gen.ReferenceIdeal

noncomputable section

namespace Cert.ReferenceIdeal.Stages

open Cert.ReferenceIdeal Cert.ReferenceIdeal.Gen Idealize.ShloMosaic

variable {F : FTy → Type} [FloatOps F]

/-- A 16-vector laid along every row of a [100000, 16] array. -/
def rows16 (b : (⟨S16, .f32⟩ : BufTy).Contents (Elt F)) : (⟨S100000x16, .f32⟩ : BufTy).Contents (Elt F) :=
  broadcastInDim S100000x16 ![0, 1] bcast_S1x16_S100000x16_0_1 (broadcastInDim S1x16 ![1] bcast_S16_S1x16_1 b)

/-- A 40-vector laid along every row of a [100000, 40] array. -/
def rows40 (b : (⟨S40, .f32⟩ : BufTy).Contents (Elt F)) : (⟨S100000x40, .f32⟩ : BufTy).Contents (Elt F) :=
  broadcastInDim S100000x40 ![0, 1] bcast_S1x40_S100000x40_0_1 (broadcastInDim S1x40 ![1] bcast_S40_S1x40_1 b)

/-- Bias, then the rectifier. -/
def biasRelu (a : (⟨S100000x16, .f32⟩ : BufTy).Contents (Elt F)) (b : (⟨S16, .f32⟩ : BufTy).Contents (Elt F)) : (⟨S100000x16, .f32⟩ : BufTy).Contents (Elt F) :=
  maximumf (addf a (rows16 b)) (broadcastInDim S100000x16 ![] bcast_S_S100000x16 (constant S_ .f32 0x00000000#32))

/-- The row maximum: reduced from −∞ and joined with −∞ again. -/
def rowMax (y : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf y (constant S_ .f32 0xFF800000#32) reducesTo_S100000x40_S100000_d1 h_S_)

/-- The scores shifted by their row's maximum. -/
def shifted (y : (⟨S100000x40, .f32⟩ : BufTy).Contents (Elt F)) : (⟨S100000x40, .f32⟩ : BufTy).Contents (Elt F) :=
  subf y (broadcastInDim S100000x40 ![0, 1] bcast_S100000x1_S100000x40_0_1 (broadcastInDim S100000x1 ![0] bcast_S100000_S100000x1_0 (rowMax y)))

/-- The row-wise log-softmax. -/
def logSoftmax (y : (⟨S100000x40, .f32⟩ : BufTy).Contents (Elt F)) : (⟨S100000x40, .f32⟩ : BufTy).Contents (Elt F) :=
  subf (shifted y)
    (broadcastInDim S100000x40 ![0, 1] bcast_S100000x1_S100000x40_0_1
      (Host.log (broadcastInDim S100000x1 ![0] bcast_S100000_S100000x1_0
        (Host.reduceAdd (Host.exp (shifted y)) (constant S_ .f32 0x00000000#32) reducesTo_S100000x40_S100000_d1 h_S_))))

end Cert.ReferenceIdeal.Stages

end
-- ==== Proof.RefLayer2.lean ====
/-
  The reference's second layer, one stretch at a time: the edge arrays and norms recomputed from the rows of the edge
  list; the aggregation of the second transform; the bias and the row-wise log-softmax; and the seven arguments, which
  no operation writes.
-/
import proofs.«153694_j9844065042433_1_alg».proof.Proof.RefChunks
import proofs.«153694_j9844065042433_1_alg».proof.Proof.RefStages
import proofs.«153694_j9844065042433_1_alg».proof.Proof.Glue
import Idealize.ShloMosaic.Lib.StableHlo.Run

set_option maxRecDepth 16384
set_option maxHeartbeats 8000000

noncomputable section

namespace Cert.ReferenceIdeal.Layer2

open Cert.ReferenceIdeal Cert.ReferenceIdeal.Gen Cert.ReferenceIdeal.ValueP Cert.ReferenceIdeal.Chunks Idealize.ShloMosaic Idealize.ShloMosaic.TcCoe Idealize.SL.Sem Idealize.ShloMosaic.StableHlo

variable {F : FTy → Type} [FloatOps F]
variable (m : (ℓ : Loc nD τ sig) → Buf (Elt F) ℓ)

/-- Contents carried into a typed reference's buffer and read back are the contents (a called function's operations read
    and write through typed references). -/
theorem ofBuf_toBuf {T : BufTy} (x : TRef sig T) (v : T.Contents (Elt F)) : x.ofBuf (x.toBuf v) = v := by
  obtain ⟨r, h, h1, h2⟩ := x
  subst h
  rfl

/-- The sources with the self loops, again. -/
theorem sources_after5 (d : Dev nD) : R5 m d (Proc.devRef .tc main_v52) = Cert.KernelIdeal.Glue.ends (R4 m d (Proc.devRef .tc main_v1)) := by
  dsimp only [R5, opsE]
  after_results_simp
  rfl
/-- The destinations with the self loops, again. -/
theorem destinations_after5 (d : Dev nD) : R5 m d (Proc.devRef .tc main_v53) = Cert.KernelIdeal.Glue.ends (R4 m d (Proc.devRef .tc main_v3)) := by
  dsimp only [R5, opsE]
  after_results_simp
  rfl
/-- The edge norms, again. -/
theorem norms_after5 (d : Dev nD) : R5 m d (Proc.devRef .tc main_v78) = Cert.KernelIdeal.Glue.normOf (Cert.KernelIdeal.Glue.ends (R4 m d (Proc.devRef .tc main_v1))) (Cert.KernelIdeal.Glue.ends (R4 m d (Proc.devRef .tc main_v3))) (Cert.KernelIdeal.Glue.weights (R4 m d (Proc.devRef .tc main_arg2))) := by
  dsimp only [R5, opsE]
  after_results_simp
  rfl
/-- The fifth stretch does not write the second transform. -/
theorem transform2_through5 (d : Dev nD) : R5 m d (Proc.devRef .tc main_v50) = R4 m d (Proc.devRef .tc main_v50) := by
  dsimp only [R5, opsE]
  after_results_simp
/-- The second aggregation. -/
theorem aggregate2_after6 (d : Dev nD) : R6 m d (Proc.devRef .tc main_v91) = Cert.KernelIdeal.Glue.aggregate40 (R5 m d (Proc.devRef .tc main_v52)) (R5 m d (Proc.devRef .tc main_v53)) (R5 m d (Proc.devRef .tc main_v78)) (R5 m d (Proc.devRef .tc main_v50)) := by
  dsimp only [R6, opsG]
  after_results_simp
  rfl
/-- The second bias is as launched. -/
theorem arg6_after6 (d : Dev nD) : R6 m d (Proc.devRef .tc main_arg6) = m ((d.tc : Thread nD τ).loc main_arg6) := by
  dsimp only [R6, R5, R4, R3, R2, R1, opsA, opsB, opsC, opsD, opsE, opsG]
  after_results_simp
/-- The result: the biased aggregate's row-wise log-softmax. -/
theorem result_after7 (d : Dev nD) : R7 m d (Proc.devRef .tc main_v95) = Stages.logSoftmax (addf (R6 m d (Proc.devRef .tc main_v91)) (Stages.rows40 (R6 m d (Proc.devRef .tc main_arg6)))) := by
  dsimp only [R7, opsH]
  after_results_simp
  simp only [ofBuf_toBuf]
  rfl

/-! ## The arguments end as launched -/

theorem arg0_kept (d : Dev nD) : after (ops : List (HloOp τ sig (Elt F))) (launchContents m d) (Proc.devRef .tc main_arg0) = m ((d.tc : Thread nD τ).loc main_arg0) := by
  after_results_simp <;> rfl
theorem arg1_kept (d : Dev nD) : after (ops : List (HloOp τ sig (Elt F))) (launchContents m d) (Proc.devRef .tc main_arg1) = m ((d.tc : Thread nD τ).loc main_arg1) := by
  after_results_simp <;> rfl
theorem arg2_kept (d : Dev nD) : after (ops : List (HloOp τ sig (Elt F))) (launchContents m d) (Proc.devRef .tc main_arg2) = m ((d.tc : Thread nD τ).loc main_arg2) := by
  after_results_simp <;> rfl
theorem arg3_kept (d : Dev nD) : after (ops : List (HloOp τ sig (Elt F))) (launchContents m d) (Proc.devRef .tc main_arg3) = m ((d.tc : Thread nD τ).loc main_arg3) := by
  after_results_simp <;> rfl
theorem arg4_kept (d : Dev nD) : after (ops : List (HloOp τ sig (Elt F))) (launchContents m d) (Proc.devRef .tc main_arg4) = m ((d.tc : Thread nD τ).loc main_arg4) := by
  after_results_simp <;> rfl
theorem arg5_kept (d : Dev nD) : after (ops : List (HloOp τ sig (Elt F))) (launchContents m d) (Proc.devRef .tc main_arg5) = m ((d.tc : Thread nD τ).loc main_arg5) := by
  after_results_simp <;> rfl
theorem arg6_kept (d : Dev nD) : after (ops : List (HloOp τ sig (Elt F))) (launchContents m d) (Proc.devRef .tc main_arg6) = m ((d.tc : Thread nD τ).loc main_arg6) := by
  after_results_simp <;> rfl

end Cert.ReferenceIdeal.Layer2

end
-- ==== Proof.RefLayer1.lean ====
/-
  The reference's first layer, one stretch at a time: after the first two stretches the first transform, the ends of the
  edges with the self loops and the edge norms, as functions of the arguments; after the third the aggregation of the
  transform; after the fourth the second transform of the biased, rectified aggregate. The sparse operations are the
  kernel's own (the same gathers and scatter-adds of the same arrays), so they are stated with the same functions.
-/
import proofs.«153694_j9844065042433_1_alg».proof.Proof.RefChunks
import proofs.«153694_j9844065042433_1_alg».proof.Proof.RefStages
import proofs.«153694_j9844065042433_1_alg».proof.Proof.Glue
import Idealize.ShloMosaic.Lib.StableHlo.Run

set_option maxRecDepth 16384
set_option maxHeartbeats 8000000

noncomputable section

namespace Cert.ReferenceIdeal.Layer1

open Cert.ReferenceIdeal Cert.ReferenceIdeal.Gen Cert.ReferenceIdeal.ValueP Cert.ReferenceIdeal.Chunks Idealize.ShloMosaic Idealize.ShloMosaic.TcCoe Idealize.SL.Sem Idealize.ShloMosaic.StableHlo

variable {F : FTy → Type} [FloatOps F]
variable (m : (ℓ : Loc nD τ sig) → Buf (Elt F) ℓ)

/-- The first transform. -/
theorem transform1_after2 (d : Dev nD) : R2 m d (Proc.devRef .tc main_v4) = Host.dotGeneral (φ₁ := .f32) (φ₂ := .f32) dot_S100000x512_S512x16_S100000x16_1_0_0_1_n_n none (m ((d.tc : Thread nD τ).loc main_arg0)) (m ((d.tc : Thread nD τ).loc main_arg3)) := by
  dsimp only [R2, R1, opsA, opsB]
  after_results_simp
/-- The sources with the self loops. -/
theorem sources_after2 (d : Dev nD) : R2 m d (Proc.devRef .tc main_v6) = Cert.KernelIdeal.Glue.ends0 (m ((d.tc : Thread nD τ).loc main_arg1)) := by
  dsimp only [R2, R1, opsA, opsB]
  after_results_simp
  rfl
/-- The destinations with the self loops. -/
theorem destinations_after2 (d : Dev nD) : R2 m d (Proc.devRef .tc main_v7) = Cert.KernelIdeal.Glue.ends1 (m ((d.tc : Thread nD τ).loc main_arg1)) := by
  dsimp only [R2, R1, opsA, opsB]
  after_results_simp
  rfl
/-- The edge norms. -/
theorem norms_after2 (d : Dev nD) : R2 m d (Proc.devRef .tc main_v32) = Cert.KernelIdeal.Glue.norm (m ((d.tc : Thread nD τ).loc main_arg1)) (m ((d.tc : Thread nD τ).loc main_arg2)) := by
  dsimp only [R2, R1, opsA, opsB]
  after_results_simp
  rfl
/-- The first aggregation. -/
theorem aggregate1_after3 (d : Dev nD) : R3 m d (Proc.devRef .tc main_v45) = Cert.KernelIdeal.Glue.aggregate16 (R2 m d (Proc.devRef .tc main_v6)) (R2 m d (Proc.devRef .tc main_v7)) (R2 m d (Proc.devRef .tc main_v32)) (R2 m d (Proc.devRef .tc main_v4)) := by
  dsimp only [R3, opsC]
  after_results_simp
  rfl
/-- The first bias is as launched. -/
theorem arg4_after3 (d : Dev nD) : R3 m d (Proc.devRef .tc main_arg4) = m ((d.tc : Thread nD τ).loc main_arg4) := by
  dsimp only [R3, R2, R1, opsA, opsB, opsC]
  after_results_simp
/-- The second weight matrix is as launched. -/
theorem arg5_after3 (d : Dev nD) : R3 m d (Proc.devRef .tc main_arg5) = m ((d.tc : Thread nD τ).loc main_arg5) := by
  dsimp only [R3, R2, R1, opsA, opsB, opsC]
  after_results_simp
/-- The second transform, of the biased and rectified aggregate. -/
theorem transform2_after4 (d : Dev nD) : R4 m d (Proc.devRef .tc main_v50) = Host.dotGeneral (φ₁ := .f32) (φ₂ := .f32) dot_S100000x16_S16x40_S100000x40_1_0_0_1_n_n none (Stages.biasRelu (R3 m d (Proc.devRef .tc main_v45)) (R3 m d (Proc.devRef .tc main_arg4))) (R3 m d (Proc.devRef .tc main_arg5)) := by
  dsimp only [R4, opsD]
  after_results_simp
  rfl
/-- The sources of the given edges, carried to the second layer. -/
theorem row0_after4 (d : Dev nD) : R4 m d (Proc.devRef .tc main_v1) = Cert.KernelIdeal.Glue.row0 (m ((d.tc : Thread nD τ).loc main_arg1)) := by
  dsimp only [R4, R3, R2, R1, opsA, opsB, opsC, opsD]
  after_results_simp
  rfl
/-- The destinations of the given edges, carried to the second layer. -/
theorem row1_after4 (d : Dev nD) : R4 m d (Proc.devRef .tc main_v3) = Cert.KernelIdeal.Glue.row1 (m ((d.tc : Thread nD τ).loc main_arg1)) := by
  dsimp only [R4, R3, R2, R1, opsA, opsB, opsC, opsD]
  after_results_simp
  rfl
/-- The edge weights are as launched. -/
theorem arg2_after4 (d : Dev nD) : R4 m d (Proc.devRef .tc main_arg2) = m ((d.tc : Thread nD τ).loc main_arg2) := by
  dsimp only [R4, R3, R2, R1, opsA, opsB, opsC, opsD]
  after_results_simp

end Cert.ReferenceIdeal.Layer1

end
-- ==== Proof.RefDense.lean ====
/-
  The reference's three dense stages against the specification, at the extended reals: each of the reference's array
  expressions, read at an entry (r, j), is the specification's entry. A product with one contracted axis is the sum over
  that axis's coordinate; a vector laid along every row reads the vector's entry at the column; a reduction over a row
  from an initial value is the fold (or the sum) over the row's entries.
-/
import proofs.«153694_j9844065042433_1_alg».proof.Proof.Spec
import proofs.«153694_j9844065042433_1_alg».proof.Proof.RefStages
import Idealize.ShloMosaic.Lib.ValueIdx
import Idealize.ShloMosaic.PureOps.Ideal.Laws
import Idealize.ShloMosaic.PureOps.Reduce
import Idealize.ShloMosaic.Lib.Pipeline.Value
import Idealize.ShloMosaic.Lib.ValueLayout
noncomputable section
open scoped BigOperators
namespace Cert.ReferenceIdeal.Dense
open Cert.ReferenceIdeal Cert.ReferenceIdeal.Gen Cert.ReferenceIdeal.Stages Idealize.ShloMosaic Idealize.ShloMosaic.ValueIdx

theorem dot1_lhs0 (i : S100000x16.Idx) (q : dot_S100000x512_S512x16_S100000x16_1_0_0_1_n_n.contr.Idx) :
    (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide),
    dif_pos (show (0 : Fin S100000x512.rank) ∈ dot_S100000x512_S512x16_S100000x16_1_0_0_1_n_n.lhsNonContracting by decide)]
  rfl
theorem dot1_lhs1 (i : S100000x16.Idx) (q : dot_S100000x512_S512x16_S100000x16_1_0_0_1_n_n.contr.Idx) :
    (dot_S100000x512_S512x16_S100000x16_1_0_0_1_n_n.lhsIdx i q 1).val = (q ⟨0, by decide⟩).val :=
  dot_S100000x512_S512x16_S100000x16_1_0_0_1_n_n.lhsIdx_val_of_single rfl i q
theorem dot1_rhs0 (i : S100000x16.Idx) (q : dot_S100000x512_S512x16_S100000x16_1_0_0_1_n_n.contr.Idx) :
    (dot_S100000x512_S512x16_S100000x16_1_0_0_1_n_n.rhsIdx i q 0).val = (q ⟨0, by decide⟩).val :=
  dot_S100000x512_S512x16_S100000x16_1_0_0_1_n_n.rhsIdx_val_of_single rfl i q
theorem dot1_rhs1 (i : S100000x16.Idx) (q : dot_S100000x512_S512x16_S100000x16_1_0_0_1_n_n.contr.Idx) :
    (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide),
    dif_pos (show (1 : Fin S512x16.rank) ∈ dot_S100000x512_S512x16_S100000x16_1_0_0_1_n_n.rhsNonContracting by decide)]
  rfl

/-- The product read at an entry: the sum over the contracted coordinate of the products of the entries. -/
theorem dot1_apply (x : FVec Ideal S100000x512 .f32) (w : FVec Ideal S512x16 .f32) (r : Fin 100000) (j : Fin 16) :
    Host.dotGeneral (φ₁ := .f32) dot_S100000x512_S512x16_S100000x16_1_0_0_1_n_n none x w (ix2 r j)
      = ∑ k : Fin 512, x (ix2 r k) * w (ix2 k j) := by
  simp only [Host.dotGeneral]
  rw [Ideal.dotGeneral_apply, ← Equiv.sum_comp (contrEquiv1 dot_S100000x512_S512x16_S100000x16_1_0_0_1_n_n 512 rfl rfl).symm]
  refine Finset.sum_congr rfl fun k _ => ?_
  have hk := contrEquiv1_symm_val dot_S100000x512_S512x16_S100000x16_1_0_0_1_n_n 512 rfl rfl k
  have el : dot_S100000x512_S512x16_S100000x16_1_0_0_1_n_n.lhsIdx (ix2 r j) ((contrEquiv1 dot_S100000x512_S512x16_S100000x16_1_0_0_1_n_n 512 rfl rfl).symm k) = ix2 r k :=
    funext fun a => Fin.ext (by
      match a with
      | ⟨0, _⟩ => exact dot1_lhs0 _ _
      | ⟨1, _⟩ => exact (dot1_lhs1 _ _).trans hk)
  have er : dot_S100000x512_S512x16_S100000x16_1_0_0_1_n_n.rhsIdx (ix2 r j) ((contrEquiv1 dot_S100000x512_S512x16_S100000x16_1_0_0_1_n_n 512 rfl rfl).symm k) = ix2 k j :=
    funext fun a => Fin.ext (by
      match a with
      | ⟨0, _⟩ => exact (dot1_rhs0 _ _).trans hk
      | ⟨1, _⟩ => exact dot1_rhs1 _ _)
  rw [el, er]

/-- The reference's first product is the first feature transform. -/
theorem transform1_eq (x : FVec Ideal S100000x512 .f32) (w : FVec Ideal S512x16 .f32) :
    Host.dotGeneral dot_S100000x512_S512x16_S100000x16_1_0_0_1_n_n none x w = Cert.Gcn.lin1 x w := by
  funext i
  obtain ⟨r, j, rfl⟩ : ∃ (r : Fin 100000) (j : Fin 16), i = ix2 r j := ⟨i 0, i 1, eq_ix2 i⟩
  rw [dot1_apply]
  rfl

theorem dot2_lhs0 (i : S100000x40.Idx) (q : dot_S100000x16_S16x40_S100000x40_1_0_0_1_n_n.contr.Idx) :
    (dot_S100000x16_S16x40_S100000x40_1_0_0_1_n_n.lhsIdx i q 0).val = (i 0).val := by
  unfold DotDims.lhsIdx
  rw [dif_neg (show ¬(0 : Fin S100000x16.rank) ∈ dot_S100000x16_S16x40_S100000x40_1_0_0_1_n_n.lhsBatch by decide),
    dif_pos (show (0 : Fin S100000x16.rank) ∈ dot_S100000x16_S16x40_S100000x40_1_0_0_1_n_n.lhsNonContracting by decide)]
  rfl
theorem dot2_lhs1 (i : S100000x40.Idx) (q : dot_S100000x16_S16x40_S100000x40_1_0_0_1_n_n.contr.Idx) :
    (dot_S100000x16_S16x40_S100000x40_1_0_0_1_n_n.lhsIdx i q 1).val = (q ⟨0, by decide⟩).val :=
  dot_S100000x16_S16x40_S100000x40_1_0_0_1_n_n.lhsIdx_val_of_single rfl i q
theorem dot2_rhs0 (i : S100000x40.Idx) (q : dot_S100000x16_S16x40_S100000x40_1_0_0_1_n_n.contr.Idx) :
    (dot_S100000x16_S16x40_S100000x40_1_0_0_1_n_n.rhsIdx i q 0).val = (q ⟨0, by decide⟩).val :=
  dot_S100000x16_S16x40_S100000x40_1_0_0_1_n_n.rhsIdx_val_of_single rfl i q
theorem dot2_rhs1 (i : S100000x40.Idx) (q : dot_S100000x16_S16x40_S100000x40_1_0_0_1_n_n.contr.Idx) :
    (dot_S100000x16_S16x40_S100000x40_1_0_0_1_n_n.rhsIdx i q 1).val = (i 1).val := by
  unfold DotDims.rhsIdx
  rw [dif_neg (show ¬(1 : Fin S16x40.rank) ∈ dot_S100000x16_S16x40_S100000x40_1_0_0_1_n_n.rhsBatch by decide),
    dif_pos (show (1 : Fin S16x40.rank) ∈ dot_S100000x16_S16x40_S100000x40_1_0_0_1_n_n.rhsNonContracting by decide)]
  rfl

/-- The product read at an entry: the sum over the contracted coordinate of the products of the entries. -/
theorem dot2_apply (x : FVec Ideal S100000x16 .f32) (w : FVec Ideal S16x40 .f32) (r : Fin 100000) (j : Fin 40) :
    Host.dotGeneral (φ₁ := .f32) dot_S100000x16_S16x40_S100000x40_1_0_0_1_n_n none x w (ix2 r j)
      = ∑ k : Fin 16, x (ix2 r k) * w (ix2 k j) := by
  simp only [Host.dotGeneral]
  rw [Ideal.dotGeneral_apply, ← Equiv.sum_comp (contrEquiv1 dot_S100000x16_S16x40_S100000x40_1_0_0_1_n_n 16 rfl rfl).symm]
  refine Finset.sum_congr rfl fun k _ => ?_
  have hk := contrEquiv1_symm_val dot_S100000x16_S16x40_S100000x40_1_0_0_1_n_n 16 rfl rfl k
  have el : dot_S100000x16_S16x40_S100000x40_1_0_0_1_n_n.lhsIdx (ix2 r j) ((contrEquiv1 dot_S100000x16_S16x40_S100000x40_1_0_0_1_n_n 16 rfl rfl).symm k) = ix2 r k :=
    funext fun a => Fin.ext (by
      match a with
      | ⟨0, _⟩ => exact dot2_lhs0 _ _
      | ⟨1, _⟩ => exact (dot2_lhs1 _ _).trans hk)
  have er : dot_S100000x16_S16x40_S100000x40_1_0_0_1_n_n.rhsIdx (ix2 r j) ((contrEquiv1 dot_S100000x16_S16x40_S100000x40_1_0_0_1_n_n 16 rfl rfl).symm k) = ix2 k j :=
    funext fun a => Fin.ext (by
      match a with
      | ⟨0, _⟩ => exact (dot2_rhs0 _ _).trans hk
      | ⟨1, _⟩ => exact dot2_rhs1 _ _)
  rw [el, er]

/-- A 16-vector laid along every row, read at (r, k): the vector's entry k. -/
theorem rows16_apply (b : FVec Ideal S16 .f32) (r : Fin 100000) (k : Fin 16) :
    rows16 (F := Ideal) b (ix2 r k) = b (ix1 k) := by
  unfold rows16
  rw [broadcastInDim_apply _ bcast_S1x16_S100000x16_0_1 _ (ix2 r k) (ix2 (0 : Fin 1) k) (fun a => match a with
    | ⟨0, _⟩ => by show 0 = if (1 : Nat) = 1 then 0 else r.val; rw [if_pos rfl]
    | ⟨1, _⟩ => by show k.val = if (16 : Nat) = 1 then 0 else k.val; rw [if_neg (by decide)])]
  exact broadcastInDim_apply _ bcast_S16_S1x16_1 b (ix2 (0 : Fin 1) k) (ix1 k) (fun a => match a with
    | ⟨0, _⟩ => by show k.val = if (16 : Nat) = 1 then 0 else k.val; rw [if_neg (by decide)])

/-- A 16-vector recast as one row of 16, read at (0, k): the vector's entry k. -/
theorem row16_apply (b : FVec Ideal S16 .f32) (hb : S16.ShapeCasts S1x16) (k : Fin 16) :
    shapeCast S1x16 b hb (ix2 (0 : Fin 1) k) = b (ix1 k) :=
  (shapeCast_addUnit_apply ![16] b hb (ix2 (0 : Fin 1) k)).trans
    (congrArg b (funext fun a => match a with | ⟨0, _⟩ => rfl))

/-- Bias and rectifier read at (r, k). -/
theorem biasRelu_apply (a : FVec Ideal S100000x16 .f32) (b : FVec Ideal S16 .f32) (r : Fin 100000) (k : Fin 16) :
    biasRelu (F := Ideal) a b (ix2 r k) = max (a (ix2 r k) + b (ix1 k)) (Ideal.ofBits .f32 0x00000000#32) := by
  show max (a (ix2 r k) + rows16 (F := Ideal) b (ix2 r k)) (Ideal.ofBits .f32 0x00000000#32) = _
  rw [rows16_apply]

/-- The reference's bias, rectifier and second product are the specification's. -/
theorem transform2_eq (a : FVec Ideal S100000x16 .f32) (b : FVec Ideal S16 .f32) (w : FVec Ideal S16x40 .f32) (hb : S16.ShapeCasts S1x16) :
    Host.dotGeneral (φ₁ := .f32) dot_S100000x16_S16x40_S100000x40_1_0_0_1_n_n none (biasRelu (F := Ideal) a b) w = Cert.Gcn.lin2 a (shapeCast S1x16 b hb) w := by
  funext i
  obtain ⟨r, j, rfl⟩ : ∃ (r : Fin 100000) (j : Fin 40), i = ix2 r j := ⟨i 0, i 1, eq_ix2 i⟩
  rw [dot2_apply]
  show _ = ∑ k : Fin 16, Cert.Gcn.hidden a (shapeCast S1x16 b hb) r k * w (ix2 k j)
  refine Finset.sum_congr rfl fun k _ => ?_
  rw [biasRelu_apply]
  unfold Cert.Gcn.hidden
  rw [row16_apply]

end Cert.ReferenceIdeal.Dense
end
-- ==== Proof.RefLogSoftmax.lean ====
import proofs.«153694_j9844065042433_1_alg».proof.Proof.Spec
import proofs.«153694_j9844065042433_1_alg».proof.Proof.RefStages
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

/-
  The reference's row-wise log-softmax of the biased class scores, read whole: at row r and class j it is
  (y(r, j) − M(r)) − log (sum over k of exp (y(r, k) − M(r))), with y(r, k) = z(r, k) + b(k) and M(r) the maximum of
  row r of y folded from −∞.

  The reference reduces the row maximum from −∞ and joins the result with −∞ once more; the second join changes nothing,
  the fold already being at least its initial value. Its row sum starts from zero, which adds nothing. Its keepdims
  columns and its bias rows are broadcasts, each read at an index as the operand at the kept coordinates.
-/
noncomputable section
namespace Cert.ReferenceIdeal.DenseLsm
open Cert.ReferenceIdeal Cert.ReferenceIdeal.Gen Cert.ReferenceIdeal.Stages Idealize.ShloMosaic Idealize.ShloMosaic.ValueIdx

/-! ## Broadcasts read at an index -/

/-- A 40-vector laid along every row reads, at `(r, k)`, the vector at `k`. -/
theorem rows40_apply (b : FVec Ideal S40 .f32) (r : Fin 100000) (k : Fin 40) :
    rows40 (F := Ideal) b (ix2 r k) = b (ix1 k) := by
  unfold rows40
  refine (broadcastInDim_apply _ bcast_S1x40_S100000x40_0_1 _ (ix2 r k) (ix2 (0 : Fin 1) k) (fun a => match a with
    | ⟨0, _⟩ => by show 0 = if (1 : Nat) = 1 then 0 else r.val; rw [if_pos rfl]
    | ⟨1, _⟩ => by show k.val = if (40 : Nat) = 1 then 0 else k.val; rw [if_neg (by decide)])).trans ?_
  exact broadcastInDim_apply _ bcast_S40_S1x40_1 b (ix2 (0 : Fin 1) k) (ix1 k) (fun a => match a with
    | ⟨0, _⟩ => by show k.val = if (40 : Nat) = 1 then 0 else k.val; rw [if_neg (by decide)])

/-- A 100000-vector kept as a column reads, at `(r, u)`, the vector at `r`. -/
theorem keepColumn_apply {α : Type} (v : S100000.Idx → α) (r : Fin 100000) (u : Fin 1) :
    broadcastInDim S100000x1 ![0] bcast_S100000_S100000x1_0 v (ix2 r u) = v (ix1 r) :=
  broadcastInDim_apply _ bcast_S100000_S100000x1_0 v (ix2 r u) (ix1 r) (fun a => match a with
    | ⟨0, _⟩ => by show r.val = if (100000 : Nat) = 1 then 0 else r.val; rw [if_neg (by decide)])

/-- A column laid along the 40 classes reads, at `(r, k)`, the column at `r`. -/
theorem alongClasses_apply {α : Type} (w : S100000x1.Idx → α) (r : Fin 100000) (k : Fin 40) :
    broadcastInDim S100000x40 ![0, 1] bcast_S100000x1_S100000x40_0_1 w (ix2 r k) = w (ix2 r (0 : Fin 1)) :=
  broadcastInDim_apply _ bcast_S100000x1_S100000x40_0_1 w (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

/-- The scalar −∞ laid along the rows reads −∞ at every row. -/
theorem negInfRows_apply (r : Fin 100000) :
    broadcastInDim S100000 ![] bcast_S_S100000 (constant (F := Ideal) S_ .f32 0xFF800000#32) (ix1 r)
      = Ideal.ofBits .f32 0xFF800000#32 :=
  broadcastInDim_apply _ bcast_S_S100000 _ (ix1 r) (fun a => a.elim0) (fun a => a.elim0)

/-! ## The row reductions read at a row -/

/-- The index a reduction over the classes reads at row `r`, class `k`, is `(r, k)`. -/
theorem lift_row (h : S100000x40.Reduces [1] S100000) (r : Fin 100000) (k : Fin 40) :
    h.lift (ix1 r) k = ix2 r k := by
  funext a
  apply Fin.ext
  match a with
  | ⟨0, _⟩ => rfl
  | ⟨1, _⟩ => rfl

/-- The maximum of row `r`, folded from −∞. -/
def rowMaxOf (y : FVec Ideal S100000x40 .f32) (r : Fin 100000) : EReal :=
  (Finset.univ : Finset (Fin 40)).fold max (Ideal.ofBits .f32 0xFF800000#32) (fun k => y (ix2 r k))

/-- The reference's row maximum at row `r`: the join with −∞ of the fold from −∞ is the fold. -/
theorem rowMax_apply (y : FVec Ideal S100000x40 .f32) (r : Fin 100000) :
    rowMax (F := Ideal) y (ix1 r) = rowMaxOf y r := by
  have hred : S100000x40.Reduces [1] S100000 := by decide
  have hB : Host.reduce FloatOps.maximumf y (constant (F := Ideal) S_ .f32 0xFF800000#32)
      reducesTo_S100000x40_S100000_d1 h_S_ (ix1 r) = rowMaxOf y r := by
    refine (Host.reduce_eq_fold_single FloatOps.maximumf y _ reducesTo_S100000x40_S100000_d1 hred h_S_ (ix1 r)).trans ?_
    show (Finset.univ : Finset (Fin 40)).fold max (Ideal.ofBits .f32 0xFF800000#32) (y ∘ hred.lift (ix1 r)) = _
    unfold rowMaxOf
    exact congrArg (fun f : Fin 40 → EReal => (Finset.univ : Finset (Fin 40)).fold max (Ideal.ofBits .f32 0xFF800000#32) f)
      (funext fun k => congrArg y (lift_row hred r k))
  unfold rowMax
  rw [maximumf_apply, negInfRows_apply, hB]
  exact max_eq_right ((Finset.le_fold_max _).mpr (Or.inl le_rfl))

/-- The reference's shifted scores at `(r, k)`. -/
theorem shifted_apply (y : FVec Ideal S100000x40 .f32) (r : Fin 100000) (k : Fin 40) :
    shifted (F := Ideal) y (ix2 r k) = y (ix2 r k) - rowMaxOf y r := by
  unfold shifted
  rw [subf_apply, alongClasses_apply, keepColumn_apply, rowMax_apply]

/-- The reference's row sum from zero at row `r` is the plain sum over the classes. -/
theorem rowSum_apply (e : FVec Ideal S100000x40 .f32) (r : Fin 100000) :
    Host.reduceAdd e (constant (F := Ideal) S_ .f32 0x00000000#32) reducesTo_S100000x40_S100000_d1 h_S_ (ix1 r)
      = ∑ k : Fin 40, e (ix2 r k) := by
  have hred : S100000x40.Reduces [1] S100000 := by decide
  simp only [Host.reduceAdd, Ideal.hostReduceAdd_def]
  rw [Ideal.hostReduceAdd_single reducesTo_S100000x40_S100000_d1 hred, constant_apply, Ideal.ofBits_zero_f32, zero_add]
  show ∑ k : Fin 40, e (hred.lift (ix1 r) k) = _
  exact Finset.sum_congr rfl fun k _ => congrArg e (lift_row hred r k)

/-- The reference's logarithm and exponential act element by element. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The reference's log-softmax at `(r, q)`. -/
theorem logSoftmax_apply (y : FVec Ideal S100000x40 .f32) (r : Fin 100000) (q : Fin 40) :
    logSoftmax (F := Ideal) y (ix2 r q)
      = (y (ix2 r q) - rowMaxOf y r) - Ideal.log (∑ k : Fin 40, Ideal.exp (y (ix2 r k) - rowMaxOf y r)) := by
  unfold logSoftmax
  rw [subf_apply, shifted_apply, alongClasses_apply, hostLog_apply, keepColumn_apply, rowSum_apply]
  simp only [hostExp_apply, shifted_apply]

/-- An array whose rows are the specification's score rows has the specification's log-softmax. -/
theorem lsm_of_rows (y : FVec Ideal S100000x40 .f32) (z : FVec Ideal ⟨2, ![100000, 40]⟩ .f32)
    (B : FVec Ideal ⟨2, ![1, 40]⟩ .f32) (hy : ∀ (r : Fin 100000) (k : Fin 40), y (ix2 r k) = Cert.Gcn.scores z B r k)
    (r : Fin 100000) (q : Fin 40) :
    (y (ix2 r q) - rowMaxOf y r) - Ideal.log (∑ k : Fin 40, Ideal.exp (y (ix2 r k) - rowMaxOf y r))
      = Cert.Gcn.lsm z B (ix2 r q) := by
  have hrow : (fun k : Fin 40 => y (ix2 r k)) = Cert.Gcn.scores z B r := funext (hy r)
  unfold rowMaxOf
  rw [hrow]
  simp only [hy]
  rfl

/-- The reference's log-softmax of the biased scores is the specification's, the bias read as a `1 × 40` row. -/
theorem logSoftmax_eq (z : FVec Ideal S100000x40 .f32) (b : FVec Ideal S40 .f32) (hb : S40.ShapeCasts S1x40) :
    logSoftmax (F := Ideal) (addf z (rows40 (F := Ideal) b)) = Cert.Gcn.lsm z (shapeCast S1x40 b hb) := by
  funext i
  obtain ⟨r, q, rfl⟩ : ∃ (r : Fin 100000) (q : Fin 40), i = ix2 r q := ⟨i 0, i 1, eq_ix2 i⟩
  refine (logSoftmax_apply _ r q).trans (lsm_of_rows _ z _ (fun r k => ?_) r q)
  show addf z (rows40 (F := Ideal) b) (ix2 r k) = z (ix2 r k) + shapeCast S1x40 b hb (ix2 (0 : Fin 1) k)
  rw [addf_apply, rows40_apply, shapeCast_a_1a_apply]

end Cert.ReferenceIdeal.DenseLsm
end
-- ==== Proof.RefResult.lean ====
/-
  The idealized reference's result as one function of its arguments: the fold over its operations, read stretch by
  stretch, is the row-wise log-softmax of the biased second aggregate; the second aggregate is the aggregation of the
  second transform of the biased, rectified first aggregate; the first aggregate is the aggregation of the first transform.
  Its three dense stages are the specification's (a `dot_general` is the row-by-column sum; the reference's log-softmax is the
  specification's), and its sparse operations are literally the kernel's.
-/
import proofs.«153694_j9844065042433_1_alg».proof.Proof.RefLayer1
import proofs.«153694_j9844065042433_1_alg».proof.Proof.RefLayer2
import proofs.«153694_j9844065042433_1_alg».proof.Proof.RefDense
import proofs.«153694_j9844065042433_1_alg».proof.Proof.RefLogSoftmax
import proofs.«153694_j9844065042433_1_alg».proof.Proof.Model

set_option maxRecDepth 16384

noncomputable section

namespace Cert.ReferenceIdeal.Result

open Cert.ReferenceIdeal Cert.ReferenceIdeal.Gen Cert.ReferenceIdeal.ValueP Cert.ReferenceIdeal.Chunks Idealize.ShloMosaic Idealize.ShloMosaic.TcCoe Idealize.SL.Sem Idealize.ShloMosaic.StableHlo

variable (m : (ℓ : Loc nD τ sig) → Buf (Elt Ideal) ℓ)

/-- THE RESULT: the fold over the reference's operations leaves the result buffer at the model of the arguments as launched. -/
theorem result_eq (d : Dev nD) : after (ops : List (HloOp τ sig (Elt Ideal))) (launchContents m d) (Proc.devRef .tc main_v95)
    = Cert.Gcn.model (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) := by
  rw [fold_eq, Layer2.result_after7, Layer2.aggregate2_after6, Layer2.arg6_after6, Layer2.sources_after5, Layer2.destinations_after5,
    Layer2.norms_after5, Layer2.transform2_through5, Layer1.transform2_after4, Layer1.row0_after4, Layer1.row1_after4, Layer1.arg2_after4,
    Layer1.aggregate1_after3, Layer1.arg4_after3, Layer1.arg5_after3, Layer1.sources_after2, Layer1.destinations_after2, Layer1.norms_after2,
    Layer1.transform1_after2]
  rw [Dense.transform1_eq, Dense.transform2_eq _ _ _ Cert.KernelIdeal.Facts₀.shapeCasts_S16_S1x16,
    DenseLsm.logSoftmax_eq _ _ Cert.KernelIdeal.Facts₀.shapeCasts_S40_S1x40]
  rfl

end Cert.ReferenceIdeal.Result

end
-- ==== Proof.lean ====
/-
  A two-layer graph convolution with a row-wise log-softmax: the Pallas program against its jnp reference, over the
  extended reals.

  Both programs compute, from the features x, the edge list e, the edge weights w and the layers' weights and biases,

      log_softmax ( A ( relu ( A (x · W1) + b1 ) · W2 ) + b2 )      (row-wise),

  where A gathers the rows of its argument at the edges' sources (self loops appended), scales each by the symmetric
  degree norm of its edge, and adds it into the row of the edge's destination. The kernel computes the two products and
  the log-softmax in three regions tiled over blocks of 4000 rows, and A on the host between them; the reference computes
  everything on the host. On the extended reals a change of float format is the identity, a sum over a row does not
  depend on the order or the tiling, and a maximum over a row taken from −∞ is not changed by joining it with −∞ again;
  the sparse operations are the same host operations of the same arrays in both programs. So each program's result is
  ONE function of its arguments (`Cert.Gcn.model`), and the two results agree when the arguments do. No step uses that the
  inputs are finite: only commutativity and associativity of sums enter, never distributivity or cancellation.

  The frames of the two kernel programs are the generated ones; the reference's frame is its run with the result
  dropped; the ideal pass rewrote nothing, so the idealization claim is trivial.
-/
import proofs.«153694_j9844065042433_1_alg».proof.Defs
import proofs.«153694_j9844065042433_1_alg».proof.Proof.Gen.Kernel
import proofs.«153694_j9844065042433_1_alg».proof.Proof.Gen.Kernel.Skeleton
import proofs.«153694_j9844065042433_1_alg».proof.Proof.Gen.Kernel.Launch
import proofs.«153694_j9844065042433_1_alg».proof.Proof.Gen.Kernel.Points
import proofs.«153694_j9844065042433_1_alg».proof.Proof.Gen.Kernel.Frame
import proofs.«153694_j9844065042433_1_alg».proof.Proof.Gen.KernelIdeal
import proofs.«153694_j9844065042433_1_alg».proof.Proof.Gen.KernelIdeal.Skeleton
import proofs.«153694_j9844065042433_1_alg».proof.Proof.Gen.KernelIdeal.Launch
import proofs.«153694_j9844065042433_1_alg».proof.Proof.Gen.KernelIdeal.Points
import proofs.«153694_j9844065042433_1_alg».proof.Proof.Gen.KernelIdeal.Frame
import proofs.«153694_j9844065042433_1_alg».proof.Proof.Gen.ReferenceIdeal
import proofs.«153694_j9844065042433_1_alg».proof.Proof.Gen.Pre_finite_inputs
import proofs.«153694_j9844065042433_1_alg».proof.Proof.KernelRun
import proofs.«153694_j9844065042433_1_alg».proof.Proof.KernelResult
import proofs.«153694_j9844065042433_1_alg».proof.Proof.RefRun
import proofs.«153694_j9844065042433_1_alg».proof.Proof.RefLayer2
import proofs.«153694_j9844065042433_1_alg».proof.Proof.RefResult
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, every buffer at the fold of its operations, read at
    the seven argument buffers, which no operation writes. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.Layer2.arg0_kept m c),
      (h c Cert.ReferenceIdeal.main_arg1).trans (Cert.ReferenceIdeal.Layer2.arg1_kept m c),
      (h c Cert.ReferenceIdeal.main_arg2).trans (Cert.ReferenceIdeal.Layer2.arg2_kept m c),
      (h c Cert.ReferenceIdeal.main_arg3).trans (Cert.ReferenceIdeal.Layer2.arg3_kept m c),
      (h c Cert.ReferenceIdeal.main_arg4).trans (Cert.ReferenceIdeal.Layer2.arg4_kept m c),
      (h c Cert.ReferenceIdeal.main_arg5).trans (Cert.ReferenceIdeal.Layer2.arg5_kept m c),
      (h c Cert.ReferenceIdeal.main_arg6).trans (Cert.ReferenceIdeal.Layer2.arg6_kept m c)⟩)
    (Cert.ReferenceIdeal.ValueP.run_fold (F := Ideal) m ρ)

/-- The ideal pass rewrote no operation. -/
theorem preserves : Cert.preserves_Kernel_KernelIdeal := trivial

/-- From memories agreeing on the arguments both idealized programs end with their result at the model of the
    arguments: the kernel's run read at its last boundary, the reference's run read at its fold. -/
theorem algebraic : Cert.algebraic_KernelIdeal_ReferenceIdeal := by
  intro m ρ m' ρ' _ hagree
  refine ⟨fun c => Cert.Gcn.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result_eq m ρ c), (h c).2⟩)
      (Cert.KernelIdeal.GcnRun.run_result (F := Ideal) m ρ)
  · refine (θ_run Cert.ReferenceIdeal.defs _ _).mono (fun r h c => ⟨?_,
      (h c Cert.ReferenceIdeal.main_arg0).trans (Cert.ReferenceIdeal.Layer2.arg0_kept m' c),
      (h c Cert.ReferenceIdeal.main_arg1).trans (Cert.ReferenceIdeal.Layer2.arg1_kept m' c),
      (h c Cert.ReferenceIdeal.main_arg2).trans (Cert.ReferenceIdeal.Layer2.arg2_kept m' c),
      (h c Cert.ReferenceIdeal.main_arg3).trans (Cert.ReferenceIdeal.Layer2.arg3_kept m' c),
      (h c Cert.ReferenceIdeal.main_arg4).trans (Cert.ReferenceIdeal.Layer2.arg4_kept m' c),
      (h c Cert.ReferenceIdeal.main_arg5).trans (Cert.ReferenceIdeal.Layer2.arg5_kept m' c),
      (h c Cert.ReferenceIdeal.main_arg6).trans (Cert.ReferenceIdeal.Layer2.arg6_kept m' c)⟩)
      (Cert.ReferenceIdeal.ValueP.run_fold (F := Ideal) m' ρ')
    obtain ⟨e0, e1, e2, e3, e4, e5, e6⟩ := hagree c
    rw [h c Cert.ReferenceIdeal.main_v95, Cert.ReferenceIdeal.Result.result_eq m' c, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
